-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S5000x128 : Shape := ⟨2, ![5000, 128]⟩
abbrev S5000x1 : Shape := ⟨2, ![5000, 1]⟩
abbrev S5000x64 : Shape := ⟨2, ![5000, 64]⟩
abbrev S5000x32 : Shape := ⟨2, ![5000, 32]⟩

abbrev nBuf : Space → Nat
  | .hbm => 76
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x64, .f32⟩
  | .hbm, ⟨40, _⟩ => ⟨S_, .f32⟩
  | .hbm, ⟨41, _⟩ => ⟨S100000x64, .f32⟩
  | .hbm, ⟨42, _⟩ => ⟨S1700000x1, .i32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x32, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x32, .f32⟩
  | .hbm, ⟨70, _⟩ => ⟨S_, .f32⟩
  | .hbm, ⟨71, _⟩ => ⟨S100000x32, .f32⟩
  | .hbm, ⟨72, _⟩ => ⟨S1700000x1, .i32⟩
  | .hbm, ⟨73, _⟩ => ⟨S100000x32, .f32⟩
  | .hbm, ⟨74, _⟩ => ⟨S1x32, .f32⟩
  | .hbm, ⟨75, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x1, .f32⟩
  | .local _ .vmem, ⟨19, _⟩ => ⟨S5000x1, .f32⟩
  | .local _ .vmem, ⟨20, _⟩ => ⟨S64x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S1x32, .f32⟩
  | .local _ .vmem, ⟨26, _⟩ => ⟨S5000x1, .f32⟩
  | .local _ .vmem, ⟨27, _⟩ => ⟨S5000x1, .f32⟩
  | .local _ .vmem, ⟨28, _⟩ => ⟨S5000x32, .f32⟩
  | .local _ .vmem, ⟨29, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst : Ref sig .tc := ⟨.hbm, 15, rfl⟩
abbrev main_call0_v7 : Ref sig .tc := ⟨.hbm, 16, rfl⟩
abbrev main_call0_cst_0 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst_1 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst_2 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_c : Ref sig .tc := ⟨.hbm, 31, rfl⟩
abbrev main_call0_v17 : Ref sig .tc := ⟨.hbm, 32, rfl⟩
abbrev main_call0_v18 : Ref sig .tc := ⟨.hbm, 33, rfl⟩
abbrev main_call0_c_3 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_cst_4 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_c_5 : Ref sig .tc := ⟨.hbm, 46, rfl⟩
abbrev main_call0_v29 : Ref sig .tc := ⟨.hbm, 47, rfl⟩
abbrev main_call0_v30 : Ref sig .tc := ⟨.hbm, 48, rfl⟩
abbrev main_call0_c_6 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_cst_7 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_c_8 : Ref sig .tc := ⟨.hbm, 61, rfl⟩
abbrev main_call0_v41 : Ref sig .tc := ⟨.hbm, 62, rfl⟩
abbrev main_call0_v42 : Ref sig .tc := ⟨.hbm, 63, rfl⟩
abbrev main_call0_c_9 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_cst_10 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_v51 : Ref sig .tc := ⟨.hbm, 74, rfl⟩
abbrev main_v0 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  bcast_S_S100000x32 : S_.BroadcastsInDim S100000x32 (![] : Fin 0 → Fin S100000x32.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v27) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v39) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v40) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v50) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v51) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x64, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x32, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x32, .f32⟩
  | 14 => ⟨S1700000x1, .f32⟩
  | 15 => ⟨S1700000x32, .f32⟩
  | 16 => ⟨S1700000x32, .f32⟩
  | 17 => ⟨S_, .f32⟩
  | 18 => ⟨S100000x32, .f32⟩
  | 19 => ⟨S1700000x1, .i32⟩
  | 20 => ⟨S100000x32, .f32⟩
  | 21 => ⟨S1x32, .f32⟩
  | 22 => ⟨S100000x32, .f32⟩
  | 23 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_18 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_20 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel program's run with its result named.

  @main is four pallas_call regions among four stretches of host operations. Every weakly fair execution from a memory with
  zero counters terminates without a fault; the final memory holds, at the result buffer, the contents the fold through the
  eight segments leaves there (the last region's write-backs over what the last host stretch left), and the argument arrays
  as launched. The fold's boundary contents and every segment's triple are the frame module's; here the run's post keeps the
  result buffer beside the arguments.
-/
import proofs.«176507_j11871289606581_2_alg».proof.Proof.KernelIdealFrameP

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents and each argument array as launched. -/
theorem run : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.ValueRun

end
-- ==== Proof.Spec.lean ====
/-
  The dense stages of a three-layer graph convolution with symmetric degree normalisation, entry by entry on the
  extended reals, every extent generic.

  Write d for the column of per-node weights (one entry per row, the inverse square root of the node's degree). A layer
  whose degree weight is split around the neighbourhood sum has two dense halves. Before the sum, rows are projected
  through a weight matrix and each projected row is multiplied by its node's weight: entry (p, q) of the result is
  (sum over k of x(p,k) * w(k,q)) * d(p,0). After the sum, the aggregate is multiplied row by row by the same weight
  and a bias row is added: agg(p,k) * d(p,0) + b(0,k). Between two layers the second half is followed by a rectifier
  and feeds the next layer's first half.
-/
import Idealize.ShloMosaic.PureOps.Ideal
import Idealize.ShloMosaic.Lib.ValueIdx

noncomputable section

open scoped BigOperators

namespace GcnSpec

open Idealize.ShloMosaic Idealize.ShloMosaic.ValueIdx

variable {a f n : ℕ}

/-- Rows projected through a weight matrix, each projected row then multiplied by its node's weight:
    entry (p, q) is (sum over k of x(p,k) * w(k,q)) * d(p,0). -/
def scaledProj (x : FVec Ideal ⟨2, ![a, f]⟩ .f32) (w : FVec Ideal ⟨2, ![f, n]⟩ .f32) (d : FVec Ideal ⟨2, ![a, 1]⟩ .f32) :
    FVec Ideal ⟨2, ![a, n]⟩ .f32 :=
  fun i => (∑ k : Fin f, x (ix2 (i 0) k) * w (ix2 k (i 1))) * d (ix2 (i 0) 0)

/-- The aggregate multiplied row by row by the node's weight, plus the bias row: agg(p,k) * d(p,0) + b(0,k). -/
def rescaled (agg : FVec Ideal ⟨2, ![a, f]⟩ .f32) (b : FVec Ideal ⟨2, ![1, f]⟩ .f32) (d : FVec Ideal ⟨2, ![a, 1]⟩ .f32) :
    FVec Ideal ⟨2, ![a, f]⟩ .f32 :=
  fun i => agg i * d (ix2 (i 0) 0) + b (ix2 0 (i 1))

/-- The rescaled, biased aggregate rectified: max(agg(p,k) * d(p,0) + b(0,k), 0). -/
def act (agg : FVec Ideal ⟨2, ![a, f]⟩ .f32) (b : FVec Ideal ⟨2, ![1, f]⟩ .f32) (d : FVec Ideal ⟨2, ![a, 1]⟩ .f32) :
    FVec Ideal ⟨2, ![a, f]⟩ .f32 :=
  fun i => max (rescaled agg b d i) 0

/-- The second half of one layer followed by the first half of the next: the rectified activation projected and
    multiplied by the node's weight. -/
def inner (agg : FVec Ideal ⟨2, ![a, f]⟩ .f32) (b : FVec Ideal ⟨2, ![1, f]⟩ .f32) (d : FVec Ideal ⟨2, ![a, 1]⟩ .f32)
    (w : FVec Ideal ⟨2, ![f, n]⟩ .f32) : FVec Ideal ⟨2, ![a, n]⟩ .f32 :=
  scaledProj (act agg b d) w d

theorem scaledProj_apply (x : FVec Ideal ⟨2, ![a, f]⟩ .f32) (w : FVec Ideal ⟨2, ![f, n]⟩ .f32)
    (d : FVec Ideal ⟨2, ![a, 1]⟩ .f32) (p : Fin a) (q : Fin n) :
    scaledProj x w d (ix2 p q) = (∑ k : Fin f, x (ix2 p k) * w (ix2 k q)) * d (ix2 p 0) := rfl

theorem rescaled_apply (agg : FVec Ideal ⟨2, ![a, f]⟩ .f32) (b : FVec Ideal ⟨2, ![1, f]⟩ .f32)
    (d : FVec Ideal ⟨2, ![a, 1]⟩ .f32) (p : Fin a) (k : Fin f) :
    rescaled agg b d (ix2 p k) = agg (ix2 p k) * d (ix2 p 0) + b (ix2 0 k) := rfl

theorem act_apply (agg : FVec Ideal ⟨2, ![a, f]⟩ .f32) (b : FVec Ideal ⟨2, ![1, f]⟩ .f32)
    (d : FVec Ideal ⟨2, ![a, 1]⟩ .f32) (p : Fin a) (k : Fin f) :
    act agg b d (ix2 p k) = max (agg (ix2 p k) * d (ix2 p 0) + b (ix2 0 k)) 0 := rfl

theorem inner_apply (agg : FVec Ideal ⟨2, ![a, f]⟩ .f32) (b : FVec Ideal ⟨2, ![1, f]⟩ .f32)
    (d : FVec Ideal ⟨2, ![a, 1]⟩ .f32) (w : FVec Ideal ⟨2, ![f, n]⟩ .f32) (p : Fin a) (q : Fin n) :
    inner agg b d w (ix2 p q)
      = (∑ k : Fin f, max (agg (ix2 p k) * d (ix2 p 0) + b (ix2 0 k)) 0 * w (ix2 k q)) * d (ix2 p 0) := rfl

end GcnSpec

end
-- ==== Proof.KernelTerms.lean ====
/-
  The kernel program's result as one structured term of its argument arrays, on the extended reals.

  The edge preparation — sources and targets with the self loops appended, the index columns, the degrees and the
  per-node weights d = deg^(-1/2) — is the reference's, operation for operation. A layer here splits the edge weight
  d(source) * d(target) around the neighbourhood sum: the projected rows are multiplied by d before they are gathered, the
  plain sum over the edges that land on a node is taken, and the sum is multiplied by d again before the bias is added.
-/
import proofs.«176507_j11871289606581_2_alg».proof.KernelIdeal
import proofs.«176507_j11871289606581_2_alg».proof.Proof.Gen.KernelIdeal
import proofs.«176507_j11871289606581_2_alg».proof.Proof.Spec

noncomputable section

namespace Cert.KernelIdeal.Terms

open Cert.KernelIdeal Cert.KernelIdeal.Gen Idealize.ShloMosaic

section Pieces

variable {F : FTy → Type} [FloatOps F]

/-- The source node of every edge, the self loops appended: row 0 of the edge array followed by 0 … N-1. -/
def src (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The target node of every edge, the self loops appended: row 1 of the edge array followed by 0 … N-1. -/
def dst (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The column of source indices a gather reads: a negative word has N added (the negative-index wrap). -/
def srcW (ei : (⟨S2x1600000, .i32⟩ : BufTy).Contents (Elt F)) : (⟨S1700000x1, .i32⟩ : BufTy).Contents (Elt F) :=
  broadcastInDim S1700000x1 ![0] bcast_S1700000_S1700000x1_0 (select (cmpi .slt (src (F := F) ei) (broadcastInDim S1700000 ![] bcast_S_S1700000 (constantI S_ 32 0#32))) (addi (src (F := F) ei) (broadcastInDim S1700000 ![] bcast_S_S1700000 (constantI S_ 32 100000#32))) (src (F := F) ei))

/-- The column of target indices a gather reads: a negative word has N added. -/
def dstW (ei : (⟨S2x1600000, .i32⟩ : BufTy).Contents (Elt F)) : (⟨S1700000x1, .i32⟩ : BufTy).Contents (Elt F) :=
  broadcastInDim S1700000x1 ![0] bcast_S1700000_S1700000x1_0 (select (cmpi .slt (dst (F := F) ei) (broadcastInDim S1700000 ![] bcast_S_S1700000 (constantI S_ 32 0#32))) (addi (dst (F := F) ei) (broadcastInDim S1700000 ![] bcast_S_S1700000 (constantI S_ 32 100000#32))) (dst (F := F) ei))

/-- The column of raw target indices the accumulating scatter takes. -/
def dstC (ei : (⟨S2x1600000, .i32⟩ : BufTy).Contents (Elt F)) : (⟨S1700000x1, .i32⟩ : BufTy).Contents (Elt F) :=
  broadcastInDim S1700000x1 ![0] bcast_S1700000_S1700000x1_0 (dst (F := F) ei)

/-- The degree of every node: ones accumulated over the edges that land on it, from zero. -/
def deg (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (dstC (F := F) ei) (broadcastInDim S1700000 ![] bcast_S_S1700000 (constant S_ .f32 0x3F800000#32))

/-- The weight of every node: the inverse square root of its degree where the degree is positive, zero elsewhere. -/
def dinv (ei : (⟨S2x1600000, .i32⟩ : BufTy).Contents (Elt F)) : (⟨S100000, .f32⟩ : BufTy).Contents (Elt F) :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))

/-- The weights as a column, one entry per row. -/
def dcol (ei : (⟨S2x1600000, .i32⟩ : BufTy).Contents (Elt F)) : (⟨S100000x1, .f32⟩ : BufTy).Contents (Elt F) :=
  shapeCast _ (dinv ei) shapeCasts_S100000_S100000x1

/-- A bias vector of 64 entries as a row. -/
def row64 (b : (⟨S64, .f32⟩ : BufTy).Contents (Elt F)) : (⟨S1x64, .f32⟩ : BufTy).Contents (Elt F) := shapeCast _ b shapeCasts_S64_S1x64

/-- A bias vector of 32 entries as a row. -/
def row32 (b : (⟨S32, .f32⟩ : BufTy).Contents (Elt F)) : (⟨S1x32, .f32⟩ : BufTy).Contents (Elt F) := shapeCast _ b shapeCasts_S32_S1x32

/-- The plain neighbourhood sum over 64 features: rows gathered at the sources, accumulated at the targets from zero. -/
def nbrSum64 (ei : (⟨S2x1600000, .i32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (dstC (F := F) ei) (Host.gather gather_S100000x64_S1700000x1_S1700000x64_1_0_n_n_0_1_164 h (srcW (F := F) ei))

/-- The same over 32 features. -/
def nbrSum32 (ei : (⟨S2x1600000, .i32⟩ : BufTy).Contents (Elt F)) (h : (⟨S100000x32, .f32⟩ : BufTy).Contents (Elt F)) : (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (dstC (F := F) ei) (Host.gather gather_S100000x32_S1700000x1_S1700000x32_1_0_n_n_0_1_132 h (srcW (F := F) ei))

end Pieces

/-- The scaled projection of the first layer, before its neighbourhood sum. -/
def hs1 (x0 : (⟨S100000x128, .f32⟩ : BufTy).Contents (Elt Ideal)) (ei : (⟨S2x1600000, .i32⟩ : BufTy).Contents (Elt Ideal)) (x2 : (⟨S128x64, .f32⟩ : BufTy).Contents (Elt Ideal)) : (⟨S100000x64, .f32⟩ : BufTy).Contents (Elt Ideal) :=
  GcnSpec.scaledProj x0 x2 (dcol (F := Ideal) ei)

/-- The second layer's scaled projection of the first layer's rectified output. -/
def hs2 (x0 : (⟨S100000x128, .f32⟩ : BufTy).Contents (Elt Ideal)) (ei : (⟨S2x1600000, .i32⟩ : BufTy).Contents (Elt Ideal)) (x2 : (⟨S128x64, .f32⟩ : BufTy).Contents (Elt Ideal)) (x3 : (⟨S64, .f32⟩ : BufTy).Contents (Elt Ideal))
    (x4 : (⟨S64x64, .f32⟩ : BufTy).Contents (Elt Ideal)) : (⟨S100000x64, .f32⟩ : BufTy).Contents (Elt Ideal) :=
  GcnSpec.inner (nbrSum64 (F := Ideal) ei (hs1 x0 ei x2)) (row64 (F := Ideal) x3) (dcol (F := Ideal) ei) x4

/-- The third layer's scaled projection of the second layer's rectified output. -/
def hs3 (x0 : (⟨S100000x128, .f32⟩ : BufTy).Contents (Elt Ideal)) (ei : (⟨S2x1600000, .i32⟩ : BufTy).Contents (Elt Ideal)) (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x32, .f32⟩ : BufTy).Contents (Elt Ideal)) : (⟨S100000x32, .f32⟩ : BufTy).Contents (Elt Ideal) :=
  GcnSpec.inner (nbrSum64 (F := Ideal) ei (hs2 x0 ei x2 x3 x4)) (row64 (F := Ideal) x5) (dcol (F := Ideal) ei) x6

/-- The three layers. -/
def kerVal (x0 : (⟨S100000x128, .f32⟩ : BufTy).Contents (Elt Ideal)) (ei : (⟨S2x1600000, .i32⟩ : BufTy).Contents (Elt Ideal)) (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) : (⟨S100000x32, .f32⟩ : BufTy).Contents (Elt Ideal) :=
  GcnSpec.rescaled (nbrSum32 (F := Ideal) ei (hs3 x0 ei x2 x3 x4 x5 x6)) (row32 (F := Ideal) x7) (dcol (F := Ideal) ei)

end Cert.KernelIdeal.Terms

end
-- ==== Proof.RefTerms.lean ====
/-
  The reference program's result as one structured term of its argument arrays.

  The edge preparation — sources and targets with the self loops appended, the index columns, the degrees and the
  per-node weights d = deg^(-1/2) — is named piece by piece. A layer gathers the projected rows at the edges' sources,
  multiplies every gathered row by d(source) * d(target), accumulates the rows at the edges' targets from zero and adds
  the bias row; a rectifier sits between two layers.
-/
import proofs.«176507_j11871289606581_2_alg».proof.ReferenceIdeal
import proofs.«176507_j11871289606581_2_alg».proof.Proof.Gen.ReferenceIdeal

noncomputable section

namespace Cert.ReferenceIdeal.Terms

open Cert.ReferenceIdeal Cert.ReferenceIdeal.Gen Idealize.ShloMosaic

variable {F : FTy → Type} [FloatOps F]

/-- The source node of every edge, the self loops appended: row 0 of the edge array followed by 0 … N-1. -/
def src (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The target node of every edge, the self loops appended: row 1 of the edge array followed by 0 … N-1. -/
def dst (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The column of source indices a gather reads: a negative word has N added (the negative-index wrap). -/
def srcW (ei : (⟨S2x1600000, .i32⟩ : BufTy).Contents (Elt F)) : (⟨S1700000x1, .i32⟩ : BufTy).Contents (Elt F) :=
  broadcastInDim S1700000x1 ![0] bcast_S1700000_S1700000x1_0 (select (cmpi .slt (src (F := F) ei) (broadcastInDim S1700000 ![] bcast_S_S1700000 (constantI S_ 32 0#32))) (addi (src (F := F) ei) (broadcastInDim S1700000 ![] bcast_S_S1700000 (constantI S_ 32 100000#32))) (src (F := F) ei))

/-- The column of target indices a gather reads: a negative word has N added. -/
def dstW (ei : (⟨S2x1600000, .i32⟩ : BufTy).Contents (Elt F)) : (⟨S1700000x1, .i32⟩ : BufTy).Contents (Elt F) :=
  broadcastInDim S1700000x1 ![0] bcast_S1700000_S1700000x1_0 (select (cmpi .slt (dst (F := F) ei) (broadcastInDim S1700000 ![] bcast_S_S1700000 (constantI S_ 32 0#32))) (addi (dst (F := F) ei) (broadcastInDim S1700000 ![] bcast_S_S1700000 (constantI S_ 32 100000#32))) (dst (F := F) ei))

/-- The column of raw target indices the accumulating scatter takes. -/
def dstC (ei : (⟨S2x1600000, .i32⟩ : BufTy).Contents (Elt F)) : (⟨S1700000x1, .i32⟩ : BufTy).Contents (Elt F) :=
  broadcastInDim S1700000x1 ![0] bcast_S1700000_S1700000x1_0 (dst (F := F) ei)

/-- The degree of every node: ones accumulated over the edges that land on it, from zero. -/
def deg (ei : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (dstC (F := F) ei) (broadcastInDim S1700000 ![] bcast_S_S1700000 (constant S_ .f32 0x3F800000#32))

/-- The weight of every node: the inverse square root of its degree where the degree is positive, zero elsewhere. -/
def dinv (ei : (⟨S2x1600000, .i32⟩ : BufTy).Contents (Elt F)) : (⟨S100000, .f32⟩ : BufTy).Contents (Elt F) :=
  select (cmpf (F := F) .ogt (deg ei) (broadcastInDim S100000 ![] bcast_S_S100000 (constant S_ .f32 0x00000000#32))) (Host.rsqrt (deg ei)) (broadcastInDim S100000 ![] bcast_S_S100000 (id (constant S_ .f32 0x00000000#32)))

/-- The weight of every edge: d(source) * d(target), each read at the wrapped index. -/
def norm (ei : (⟨S2x1600000, .i32⟩ : BufTy).Contents (Elt F)) : (⟨S1700000, .f32⟩ : BufTy).Contents (Elt F) :=
  mulf (Host.gather gather_S100000_S1700000x1_S1700000_n_0_n_n_0_1_1 (dinv ei) (srcW (F := F) ei)) (Host.gather gather_S100000_S1700000x1_S1700000_n_0_n_n_0_1_1 (dinv ei) (dstW (F := F) ei))

/-- One neighbourhood sum over 64 features: rows gathered at the sources, each multiplied by its edge's weight,
    accumulated at the targets from zero. -/
def edgeSum64 (ei : (⟨S2x1600000, .i32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (dstC (F := F) ei) (mulf (Host.gather gather_S100000x64_S1700000x1_S1700000x64_1_0_n_n_0_1_164 h (srcW (F := F) ei)) (broadcastInDim S1700000x64 ![0, 1] bcast_S1700000x1_S1700000x64_0_1 (broadcastInDim S1700000x1 ![0] bcast_S1700000_S1700000x1_0 (norm ei))))

/-- The same over 32 features. -/
def edgeSum32 (ei : (⟨S2x1600000, .i32⟩ : BufTy).Contents (Elt F)) (h : (⟨S100000x32, .f32⟩ : BufTy).Contents (Elt F)) : (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (dstC (F := F) ei) (mulf (Host.gather gather_S100000x32_S1700000x1_S1700000x32_1_0_n_n_0_1_132 h (srcW (F := F) ei)) (broadcastInDim S1700000x32 ![0, 1] bcast_S1700000x1_S1700000x32_0_1 (broadcastInDim S1700000x1 ![0] bcast_S1700000_S1700000x1_0 (norm ei))))

/-- The three layers: project, sum over the neighbourhood, add the bias, rectify between layers. -/
def refVal (x0 : (⟨S100000x128, .f32⟩ : BufTy).Contents (Elt F)) (ei : (⟨S2x1600000, .i32⟩ : BufTy).Contents (Elt F)) (x2 : (⟨S128x64, .f32⟩ : BufTy).Contents (Elt F)) (x3 : (⟨S64, .f32⟩ : BufTy).Contents (Elt F))
    (x4 : (⟨S64x64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F)) : (⟨S100000x32, .f32⟩ : BufTy).Contents (Elt F) :=
  addf (edgeSum32 ei (Host.dotGeneral dot_S100000x64_S64x32_S100000x32_1_0_0_1_n_n none (maximumf (addf (edgeSum64 ei (Host.dotGeneral dot_S100000x64_S64x64_S100000x64_1_0_0_1_n_n none (maximumf (addf (edgeSum64 ei (Host.dotGeneral dot_S100000x128_S128x64_S100000x64_1_0_0_1_n_n none x0 x2)) (broadcastInDim S100000x64 ![0, 1] bcast_S1x64_S100000x64_0_1 (broadcastInDim S1x64 ![1] bcast_S64_S1x64_1 x3))) (broadcastInDim S100000x64 ![] bcast_S_S100000x64 (constant S_ .f32 0x00000000#32))) x4)) (broadcastInDim S100000x64 ![0, 1] bcast_S1x64_S100000x64_0_1 (broadcastInDim S1x64 ![1] bcast_S64_S1x64_1 x5))) (broadcastInDim S100000x64 ![] bcast_S_S100000x64 (constant S_ .f32 0x00000000#32))) x6)) (broadcastInDim S100000x32 ![0, 1] bcast_S1x32_S100000x32_0_1 (broadcastInDim S1x32 ![1] bcast_S32_S1x32_1 x7))

end Cert.ReferenceIdeal.Terms

end
-- ==== Proof.KernelHostOps.lean ====
/-
  The kernel program's four stretches of host operations, each restated as the plain list of its operations on the
  program's buffers. A stretch inside a called function names each buffer together with its value type and moves contents
  to and from the buffer's own type; those moves are the identity, so each operation is the plain operation on the buffer.
-/
import proofs.«176507_j11871289606581_2_alg».proof.Proof.KernelIdealLaunchP

set_option maxRecDepth 16384

noncomputable section

namespace Cert.KernelIdeal.HostPlain

open Idealize.ShloMosaic Idealize.ShloMosaic.TcCoe Idealize.SL.Sem
open Cert.KernelIdeal Cert.KernelIdeal.Gen

variable {F : FTy → Type} [FloatOps F]

/-- Stretch 0, operation by operation. -/
abbrev ops0 : List (HloOp τ sig (Elt F)) :=
  [ StableHlo.nullary main_call0_v0 (iotaInDim S100000 32 0 : (⟨S100000, .i32⟩ : BufTy).Contents (Elt F)),
    StableHlo.unary main_arg1 main_call0_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_call0_v1 main_call0_v2 rfl shapeCasts_S1x1600000_S1600000,
    StableHlo.binary main_call0_v2 main_call0_v0 main_call0_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_call0_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_call0_v4 main_call0_v5 rfl shapeCasts_S1x1600000_S1600000,
    StableHlo.binary main_call0_v5 main_call0_v0 main_call0_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_call0_cst (constant S_ .f32 0x3F800000#32 : (⟨S_, .f32⟩ : BufTy).Contents (Elt F)),
    StableHlo.unary main_call0_cst main_call0_v7 ((broadcastInDim S1700000 ![] bcast_S_S1700000) : (⟨S_, .f32⟩ : BufTy).Contents (Elt F) → (⟨S1700000, .f32⟩ : BufTy).Contents (Elt F)),
    StableHlo.nullary main_call0_cst_0 (constant S_ .f32 0x00000000#32 : (⟨S_, .f32⟩ : BufTy).Contents (Elt F)),
    StableHlo.unary main_call0_cst_0 main_call0_v8 ((broadcastInDim S100000 ![] bcast_S_S100000) : (⟨S_, .f32⟩ : BufTy).Contents (Elt F) → (⟨S100000, .f32⟩ : BufTy).Contents (Elt F)),
    StableHlo.unary main_call0_v6 main_call0_v9 ((broadcastInDim S1700000x1 ![0] bcast_S1700000_S1700000x1_0) : (⟨S1700000, .i32⟩ : BufTy).Contents (Elt F) → (⟨S1700000x1, .i32⟩ : BufTy).Contents (Elt F)),
    StableHlo.ternary main_call0_v8 main_call0_v9 main_call0_v7 main_call0_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_call0_cst_1 (constant S_ .f32 0x00000000#32 : (⟨S_, .f32⟩ : BufTy).Contents (Elt F)),
    StableHlo.unary main_call0_cst_1 main_call0_v11 ((broadcastInDim S100000 ![] bcast_S_S100000) : (⟨S_, .f32⟩ : BufTy).Contents (Elt F) → (⟨S100000, .f32⟩ : BufTy).Contents (Elt F)),
    StableHlo.binary main_call0_v10 main_call0_v11 main_call0_v12 ((cmpf .ogt) : (⟨S100000, .f32⟩ : BufTy).Contents (Elt F) → (⟨S100000, .f32⟩ : BufTy).Contents (Elt F) → (⟨S100000, .i1⟩ : BufTy).Contents (Elt F)),
    StableHlo.unary main_call0_v10 main_call0_v13 ((Host.rsqrt) : (⟨S100000, .f32⟩ : BufTy).Contents (Elt F) → (⟨S100000, .f32⟩ : BufTy).Contents (Elt F)),
    StableHlo.nullary main_call0_cst_2 (constant S_ .f32 0x00000000#32 : (⟨S_, .f32⟩ : BufTy).Contents (Elt F)),
    StableHlo.unary main_call0_cst_2 main_call0_call0_v0 ((id) : (⟨S_, .f32⟩ : BufTy).Contents (Elt F) → (⟨S_, .f32⟩ : BufTy).Contents (Elt F)),
    StableHlo.unary main_call0_call0_v0 main_call0_call0_v1 ((broadcastInDim S100000 ![] bcast_S_S100000) : (⟨S_, .f32⟩ : BufTy).Contents (Elt F) → (⟨S100000, .f32⟩ : BufTy).Contents (Elt F)),
    StableHlo.ternary main_call0_v12 main_call0_v13 main_call0_call0_v1 main_call0_v14 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.reshape main_call0_v14 main_call0_v15 rfl shapeCasts_S100000_S100000x1 ]

theorem ops0_eq : (hostOps0 : List (HloOp τ sig (Elt F))) = ops0 := rfl

/-- Stretch 1, operation by operation. -/
abbrev ops1 : List (HloOp τ sig (Elt F)) :=
  [ StableHlo.nullary main_call0_c (constantI S_ 32 0#32 : (⟨S_, .i32⟩ : BufTy).Contents (Elt F)),
    StableHlo.unary main_call0_c main_call0_v17 ((broadcastInDim S1700000 ![] bcast_S_S1700000) : (⟨S_, .i32⟩ : BufTy).Contents (Elt F) → (⟨S1700000, .i32⟩ : BufTy).Contents (Elt F)),
    StableHlo.binary main_call0_v3 main_call0_v17 main_call0_v18 ((cmpi .slt) : (⟨S1700000, .i32⟩ : BufTy).Contents (Elt F) → (⟨S1700000, .i32⟩ : BufTy).Contents (Elt F) → (⟨S1700000, .i1⟩ : BufTy).Contents (Elt F)),
    StableHlo.nullary main_call0_c_3 (constantI S_ 32 100000#32 : (⟨S_, .i32⟩ : BufTy).Contents (Elt F)),
    StableHlo.unary main_call0_c_3 main_call0_v19 ((broadcastInDim S1700000 ![] bcast_S_S1700000) : (⟨S_, .i32⟩ : BufTy).Contents (Elt F) → (⟨S1700000, .i32⟩ : BufTy).Contents (Elt F)),
    StableHlo.binary main_call0_v3 main_call0_v19 main_call0_v20 ((addi) : (⟨S1700000, .i32⟩ : BufTy).Contents (Elt F) → (⟨S1700000, .i32⟩ : BufTy).Contents (Elt F) → (⟨S1700000, .i32⟩ : BufTy).Contents (Elt F)),
    StableHlo.ternary main_call0_v18 main_call0_v20 main_call0_v3 main_call0_v21 ((select) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_call0_v21 main_call0_v22 ((broadcastInDim S1700000x1 ![0] bcast_S1700000_S1700000x1_0) : (⟨S1700000, .i32⟩ : BufTy).Contents (Elt F) → (⟨S1700000x1, .i32⟩ : BufTy).Contents (Elt F)),
    StableHlo.binary main_call0_v16 main_call0_v22 main_call0_v23 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.nullary main_call0_cst_4 (constant S_ .f32 0x00000000#32 : (⟨S_, .f32⟩ : BufTy).Contents (Elt F)),
    StableHlo.unary main_call0_cst_4 main_call0_v24 ((broadcastInDim S100000x64 ![] bcast_S_S100000x64) : (⟨S_, .f32⟩ : BufTy).Contents (Elt F) → (⟨S100000x64, .f32⟩ : BufTy).Contents (Elt F)),
    StableHlo.unary main_call0_v6 main_call0_v25 ((broadcastInDim S1700000x1 ![0] bcast_S1700000_S1700000x1_0) : (⟨S1700000, .i32⟩ : BufTy).Contents (Elt F) → (⟨S1700000x1, .i32⟩ : BufTy).Contents (Elt F)),
    StableHlo.ternary main_call0_v24 main_call0_v25 main_call0_v23 main_call0_v26 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.reshape main_arg3 main_call0_v27 rfl shapeCasts_S64_S1x64 ]

theorem ops1_eq : (hostOps1 : List (HloOp τ sig (Elt F))) = ops1 := rfl

/-- Stretch 2, operation by operation. -/
abbrev ops2 : List (HloOp τ sig (Elt F)) :=
  [ StableHlo.nullary main_call0_c_5 (constantI S_ 32 0#32 : (⟨S_, .i32⟩ : BufTy).Contents (Elt F)),
    StableHlo.unary main_call0_c_5 main_call0_v29 ((broadcastInDim S1700000 ![] bcast_S_S1700000) : (⟨S_, .i32⟩ : BufTy).Contents (Elt F) → (⟨S1700000, .i32⟩ : BufTy).Contents (Elt F)),
    StableHlo.binary main_call0_v3 main_call0_v29 main_call0_v30 ((cmpi .slt) : (⟨S1700000, .i32⟩ : BufTy).Contents (Elt F) → (⟨S1700000, .i32⟩ : BufTy).Contents (Elt F) → (⟨S1700000, .i1⟩ : BufTy).Contents (Elt F)),
    StableHlo.nullary main_call0_c_6 (constantI S_ 32 100000#32 : (⟨S_, .i32⟩ : BufTy).Contents (Elt F)),
    StableHlo.unary main_call0_c_6 main_call0_v31 ((broadcastInDim S1700000 ![] bcast_S_S1700000) : (⟨S_, .i32⟩ : BufTy).Contents (Elt F) → (⟨S1700000, .i32⟩ : BufTy).Contents (Elt F)),
    StableHlo.binary main_call0_v3 main_call0_v31 main_call0_v32 ((addi) : (⟨S1700000, .i32⟩ : BufTy).Contents (Elt F) → (⟨S1700000, .i32⟩ : BufTy).Contents (Elt F) → (⟨S1700000, .i32⟩ : BufTy).Contents (Elt F)),
    StableHlo.ternary main_call0_v30 main_call0_v32 main_call0_v3 main_call0_v33 ((select) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_call0_v33 main_call0_v34 ((broadcastInDim S1700000x1 ![0] bcast_S1700000_S1700000x1_0) : (⟨S1700000, .i32⟩ : BufTy).Contents (Elt F) → (⟨S1700000x1, .i32⟩ : BufTy).Contents (Elt F)),
    StableHlo.binary main_call0_v28 main_call0_v34 main_call0_v35 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.nullary main_call0_cst_7 (constant S_ .f32 0x00000000#32 : (⟨S_, .f32⟩ : BufTy).Contents (Elt F)),
    StableHlo.unary main_call0_cst_7 main_call0_v36 ((broadcastInDim S100000x64 ![] bcast_S_S100000x64) : (⟨S_, .f32⟩ : BufTy).Contents (Elt F) → (⟨S100000x64, .f32⟩ : BufTy).Contents (Elt F)),
    StableHlo.unary main_call0_v6 main_call0_v37 ((broadcastInDim S1700000x1 ![0] bcast_S1700000_S1700000x1_0) : (⟨S1700000, .i32⟩ : BufTy).Contents (Elt F) → (⟨S1700000x1, .i32⟩ : BufTy).Contents (Elt F)),
    StableHlo.ternary main_call0_v36 main_call0_v37 main_call0_v35 main_call0_v38 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.reshape main_arg5 main_call0_v39 rfl shapeCasts_S64_S1x64 ]

theorem ops2_eq : (hostOps2 : List (HloOp τ sig (Elt F))) = ops2 := rfl

/-- Stretch 3, operation by operation. -/
abbrev ops3 : List (HloOp τ sig (Elt F)) :=
  [ StableHlo.nullary main_call0_c_8 (constantI S_ 32 0#32 : (⟨S_, .i32⟩ : BufTy).Contents (Elt F)),
    StableHlo.unary main_call0_c_8 main_call0_v41 ((broadcastInDim S1700000 ![] bcast_S_S1700000) : (⟨S_, .i32⟩ : BufTy).Contents (Elt F) → (⟨S1700000, .i32⟩ : BufTy).Contents (Elt F)),
    StableHlo.binary main_call0_v3 main_call0_v41 main_call0_v42 ((cmpi .slt) : (⟨S1700000, .i32⟩ : BufTy).Contents (Elt F) → (⟨S1700000, .i32⟩ : BufTy).Contents (Elt F) → (⟨S1700000, .i1⟩ : BufTy).Contents (Elt F)),
    StableHlo.nullary main_call0_c_9 (constantI S_ 32 100000#32 : (⟨S_, .i32⟩ : BufTy).Contents (Elt F)),
    StableHlo.unary main_call0_c_9 main_call0_v43 ((broadcastInDim S1700000 ![] bcast_S_S1700000) : (⟨S_, .i32⟩ : BufTy).Contents (Elt F) → (⟨S1700000, .i32⟩ : BufTy).Contents (Elt F)),
    StableHlo.binary main_call0_v3 main_call0_v43 main_call0_v44 ((addi) : (⟨S1700000, .i32⟩ : BufTy).Contents (Elt F) → (⟨S1700000, .i32⟩ : BufTy).Contents (Elt F) → (⟨S1700000, .i32⟩ : BufTy).Contents (Elt F)),
    StableHlo.ternary main_call0_v42 main_call0_v44 main_call0_v3 main_call0_v45 ((select) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_call0_v45 main_call0_v46 ((broadcastInDim S1700000x1 ![0] bcast_S1700000_S1700000x1_0) : (⟨S1700000, .i32⟩ : BufTy).Contents (Elt F) → (⟨S1700000x1, .i32⟩ : BufTy).Contents (Elt F)),
    StableHlo.binary main_call0_v40 main_call0_v46 main_call0_v47 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.nullary main_call0_cst_10 (constant S_ .f32 0x00000000#32 : (⟨S_, .f32⟩ : BufTy).Contents (Elt F)),
    StableHlo.unary main_call0_cst_10 main_call0_v48 ((broadcastInDim S100000x32 ![] bcast_S_S100000x32) : (⟨S_, .f32⟩ : BufTy).Contents (Elt F) → (⟨S100000x32, .f32⟩ : BufTy).Contents (Elt F)),
    StableHlo.unary main_call0_v6 main_call0_v49 ((broadcastInDim S1700000x1 ![0] bcast_S1700000_S1700000x1_0) : (⟨S1700000, .i32⟩ : BufTy).Contents (Elt F) → (⟨S1700000x1, .i32⟩ : BufTy).Contents (Elt F)),
    StableHlo.ternary main_call0_v48 main_call0_v49 main_call0_v47 main_call0_v50 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.reshape main_arg7 main_call0_v51 rfl shapeCasts_S32_S1x32 ]

theorem ops3_eq : (hostOps3 : List (HloOp τ sig (Elt F))) = ops3 := rfl

end Cert.KernelIdeal.HostPlain

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«176507_j11871289606581_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.Region0.lean ====
/-
  The first dense stage of the graph convolution, from blocks to the whole array.

  The rows of the node features are cut into 20 blocks of 5000 rows. At each block the body multiplies the block's
  [5000, 128] rows by the whole [128, 64] weight matrix, accumulating into zero, and multiplies row p of the product by
  that row's node weight: entry (p, q) of the block is (sum over k of x(p,k) * w(k,q)) * d(p,0). Entry (p, q) depends on
  row p of the features, column q of the weights and entry p of the weight column only, and block t holds rows
  5000 t ... 5000 t + 4999 of each row-tiled array, so block t of the result is block t of the whole-array function
  `GcnSpec.scaledProj`; the 20 blocks tile the 100000 rows, so the result array ends holding that function.
-/
import proofs.«176507_j11871289606581_2_alg».proof.Proof.KernelIdealFrameP
import proofs.«176507_j11871289606581_2_alg».proof.Proof.Spec
import proofs.«176507_j11871289606581_2_alg».proof.Proof.LibDotRecord
import proofs.«176507_j11871289606581_2_alg».proof.Proof.LibRowOps
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region0

open Cert.KernelIdeal Cert.KernelIdeal.Gen

/-- The zero offsets of a whole-block access. -/
theorem zero_offsets : (![0, 0] : Fin 2 → Nat) = fun _ => 0 := funext fun a => by fin_cases a <;> rfl

/-- The body's result at entry (p, q) of a block: the product of the block's rows with the weights at (p, q), times the
    row's node weight. -/
theorem payload_apply (x0 : Vec Ideal S5000x128 .f32) (x1 : Vec Ideal S128x64 .f32) (x2 : Vec Ideal S5000x1 .f32)
    (p : Fin 5000) (q : Fin 64) :
    k0_pay1 (F := Ideal) x0 x1 x2 (ix2 p q)
      = (∑ k : Fin 128, x0 (ix2 p k) * x1 (ix2 k q)) * x2 (ix2 p (0 : Fin 1)) := by
  unfold k0_pay1
  rw [mulf_apply]
  refine congrArg₂ (· * ·) ?_ ?_
  · refine (DotRecord.matmul_zero_apply dot_S5000x128_S128x64_S5000x64_1_0_0_1_n_n rfl rfl rfl rfl rfl rfl _ _ none p q).trans
      (Finset.sum_congr rfl fun k _ => ?_)
    rw [truncf_apply, truncf_apply]
  · rw [shapeCast_self]
    exact Gcn.Lib.broadcastTo_a1_ab_apply _ _ p q

/-- Entry j of a block's result is entry i of the whole-array function as soon as row (j 0) of the block's features is
    row (i 0) of the array's, column (j 1) of the block's weights is column (i 1) of the array's, and entry (j 0) of the
    block's weight column is entry (i 0) of the array's. -/
theorem entry_eq (x0 : Vec Ideal S5000x128 .f32) (x1 : Vec Ideal S128x64 .f32) (x2 : Vec Ideal S5000x1 .f32)
    (A0 : FVec Ideal S100000x128 .f32) (A1 : FVec Ideal S128x64 .f32) (A2 : FVec Ideal S100000x1 .f32)
    (j : S5000x64.Idx) (i : S100000x64.Idx)
    (h0 : ∀ k : Fin 128, x0 (ix2 (j 0) k) = A0 (ix2 (i 0) k))
    (h1 : ∀ k : Fin 128, x1 (ix2 k (j 1)) = A1 (ix2 k (i 1)))
    (h2 : x2 (ix2 (j 0) (0 : Fin 1)) = A2 (ix2 (i 0) (0 : Fin 1))) :
    k0_pay1 (F := Ideal) x0 x1 x2 j = GcnSpec.scaledProj A0 A1 A2 i := by
  obtain ⟨p, q, rfl⟩ : ∃ (p : Fin 5000) (q : Fin 64), j = ix2 p q := ⟨j 0, j 1, eq_ix2 j⟩
  show _ = (∑ k : Fin 128, A0 (ix2 (i 0) k) * A1 (ix2 k (i 1))) * A2 (ix2 (i 0) (0 : Fin 1))
  rw [payload_apply]
  exact congrArg₂ (· * ·) (Finset.sum_congr rfl fun k _ => congrArg₂ (· * ·) (h0 k) (h1 k)) h2

/-- The windows' index maps over the grid: the row-tiled windows are at block (t, 0), the weights at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point t writes back is block t of the whole-array function of the region's arrays. -/
theorem block_eq (c : Dev nD) (t : Fin cfg0.N) :
    (dat0 (F := Ideal) V c).flushed 3 t
      = ((cfg0.win 3).blk t).view.read (Elt Ideal)
          (GcnSpec.scaledProj (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S5000x1) zero_offsets]
  obtain ⟨e00, e01, e10, e11, e20, e21, e30, e31⟩ := index_facts t
  funext j
  show k0_pay1 (F := Ideal) (iblk0 V c 0 t) (iblk0 V c 1 t) (iblk0 V c 2 t) j
    = GcnSpec.scaledProj (V c (Pipeline.arrRef spec0 0)) (V c (Pipeline.arrRef spec0 1)) (V c (Pipeline.arrRef spec0 2))
        (((cfg0.win 3).blk t).view.emb j)
  refine entry_eq _ _ _ _ _ _ j _ (fun k => ?_) (fun k => ?_) ?_
  · -- row (j 0) of the features' block t is row 5000 t + (j 0) of the array
    show V c (Pipeline.arrRef spec0 0) (((cfg0.win 0).blk t).view.emb (ix2 (j 0) k)) = V c (Pipeline.arrRef spec0 0) _
    refine congrArg (V c (Pipeline.arrRef spec0 0)) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · -- the weights' one block is the whole matrix
    show V c (Pipeline.arrRef spec0 1) (((cfg0.win 1).blk t).view.emb (ix2 k (j 1))) = V c (Pipeline.arrRef spec0 1) _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  · -- entry (j 0) of the weight column's block t is entry 5000 t + (j 0) of the array
    show V c (Pipeline.arrRef spec0 2) (((cfg0.win 2).blk t).view.emb (ix2 (j 0) (0 : Fin 1))) = V c (Pipeline.arrRef spec0 2) _
    refine congrArg (V c (Pipeline.arrRef spec0 2)) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

end

/-- An index of the result array is in point t's block iff each coordinate is in the block's range on its axis. -/
theorem mem_block (t : Fin cfg0.N) (i : S100000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_call0_v16).slice (win0_3.rect t)).set ↔ _
  rw [View.set_slice_whole, Rect.mem_set_unit]
  exact Iff.rfl

/-- The blocks tile the rows: row r is in the block of point r / 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, -, -, e30, e31⟩ := index_facts t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The result array after the region: the whole-array function of the region's arrays. -/
theorem final (V : (c : Dev nD) → (b : Ref sig .tc) → Buf (Elt Ideal) ((c : Thread nD τ).loc b)) (c : Dev nD) :
    (dat0 (F := Ideal) V c).arrAt 3 cfg0.N
      = GcnSpec.scaledProj (V c (Pipeline.arrRef spec0 0)) (V c (Pipeline.arrRef spec0 1)) (V c (Pipeline.arrRef spec0 2)) :=
  (dat0 V c).arrAt_eq_of_cover 3 _ (fun t _ => block_eq V c t) covered

end Cert.KernelIdeal.Region0

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«176507_j11871289606581_2_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibSymNorm.lean ====
/-
  The dense stages of a graph convolution with symmetric degree normalisation, read at an entry on the extended reals.

  A graph convolution normalised by D_out^(-1/2) A D_in^(-1/2) has, between its edge-wise gather / scatter-add passes,
  dense stages on the node rows. With s an [a, 1] column of per-node scales, b a [1, f] bias row and w an [f, n]
  weight matrix, at row p:

    • the scaled features projected:            proj (p, q) = ∑ k, x (p, k) · s (p) · w (k, q);
    • an aggregate rescaled, biased, rectified: act (p, k)  = max (agg (p, k) · s_in (p) + b (k)) 0;
    • that, rescaled again and projected:       mid (p, q)  = ∑ k, act (p, k) · s_out (p) · w (k, q);
    • that, projected on the classes:           head (p, q) = (∑ k, act (p, k) · w_c (k, q)) + b_c (q).

  A tile body spells a stage with the column repeated across the lanes, the row repeated down the tile, both factors of the
  product narrowed to a shorter float format (the identity on the extended reals) and the matrix unit accumulating into
  zero; a host program spells it with broadcasts by dimension maps, `dot_general`, and a maximum with a scalar zero repeated
  everywhere, the scales and biases arriving as plain vectors. Both read, entry by entry, as the expressions above: nothing
  is distributed or cancelled, so no finiteness is needed. Every extent is generic.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«176507_j11871289606581_2_alg».proof.Proof.LibDotRecord
import proofs.«176507_j11871289606581_2_alg».proof.Proof.LibRowOps
import proofs.«176507_j11871289606581_2_alg».proof.Proof.LibHostRead
import proofs.«176507_j11871289606581_2_alg».proof.Proof.LibHostSlab

noncomputable section

namespace SymNorm

open Idealize.ShloMosaic Idealize.ShloMosaic.ValueIdx

variable {a f n : ℕ}

/-! ## The stages, entry by entry -/

/-- The scaled features of row `p` against column `q` of the weights. -/
def projAt (x : (⟨2, ![a, f]⟩ : Shape).Idx → EReal) (s : (⟨2, ![a, 1]⟩ : Shape).Idx → EReal)
    (w : (⟨2, ![f, n]⟩ : Shape).Idx → EReal) (p : Fin a) (q : Fin n) : EReal :=
  ∑ k : Fin f, x (ix2 p k) * s (ix2 p (0 : Fin 1)) * w (ix2 k q)

/-- The aggregate of row `p`, feature `k`, rescaled by the row's scale, biased and rectified. -/
def actAt (agg : (⟨2, ![a, f]⟩ : Shape).Idx → EReal) (s : (⟨2, ![a, 1]⟩ : Shape).Idx → EReal)
    (b : (⟨2, ![1, f]⟩ : Shape).Idx → EReal) (p : Fin a) (k : Fin f) : EReal :=
  max (agg (ix2 p k) * s (ix2 p (0 : Fin 1)) + b (ix2 (0 : Fin 1) k)) (Ideal.ofBits .f32 0x00000000#32)

/-- The activation of row `p`, rescaled by the row's second scale, against column `q` of the weights. -/
def midAt (agg : (⟨2, ![a, f]⟩ : Shape).Idx → EReal) (sIn : (⟨2, ![a, 1]⟩ : Shape).Idx → EReal)
    (b : (⟨2, ![1, f]⟩ : Shape).Idx → EReal) (sOut : (⟨2, ![a, 1]⟩ : Shape).Idx → EReal)
    (w : (⟨2, ![f, n]⟩ : Shape).Idx → EReal) (p : Fin a) (q : Fin n) : EReal :=
  ∑ k : Fin f, actAt agg sIn b p k * sOut (ix2 p (0 : Fin 1)) * w (ix2 k q)

/-- The activation of row `p` against column `q` of the class weights, plus the class bias. -/
def headAt (agg : (⟨2, ![a, f]⟩ : Shape).Idx → EReal) (sIn : (⟨2, ![a, 1]⟩ : Shape).Idx → EReal)
    (b : (⟨2, ![1, f]⟩ : Shape).Idx → EReal) (wc : (⟨2, ![f, n]⟩ : Shape).Idx → EReal)
    (bc : (⟨2, ![1, n]⟩ : Shape).Idx → EReal) (p : Fin a) (q : Fin n) : EReal :=
  (∑ k : Fin f, actAt agg sIn b p k * wc (ix2 k q)) + bc (ix2 (0 : Fin 1) q)

/-! ## The stages as functions of whole arrays -/

def proj (x : (⟨2, ![a, f]⟩ : Shape).Idx → EReal) (s : (⟨2, ![a, 1]⟩ : Shape).Idx → EReal)
    (w : (⟨2, ![f, n]⟩ : Shape).Idx → EReal) : (⟨2, ![a, n]⟩ : Shape).Idx → EReal :=
  fun i => projAt x s w (i 0) (i 1)

def mid (agg : (⟨2, ![a, f]⟩ : Shape).Idx → EReal) (sIn : (⟨2, ![a, 1]⟩ : Shape).Idx → EReal)
    (b : (⟨2, ![1, f]⟩ : Shape).Idx → EReal) (sOut : (⟨2, ![a, 1]⟩ : Shape).Idx → EReal)
    (w : (⟨2, ![f, n]⟩ : Shape).Idx → EReal) : (⟨2, ![a, n]⟩ : Shape).Idx → EReal :=
  fun i => midAt agg sIn b sOut w (i 0) (i 1)

def head (agg : (⟨2, ![a, f]⟩ : Shape).Idx → EReal) (sIn : (⟨2, ![a, 1]⟩ : Shape).Idx → EReal)
    (b : (⟨2, ![1, f]⟩ : Shape).Idx → EReal) (wc : (⟨2, ![f, n]⟩ : Shape).Idx → EReal)
    (bc : (⟨2, ![1, n]⟩ : Shape).Idx → EReal) : (⟨2, ![a, n]⟩ : Shape).Idx → EReal :=
  fun i => headAt agg sIn b wc bc (i 0) (i 1)

theorem proj_apply (x : (⟨2, ![a, f]⟩ : Shape).Idx → EReal) (s : (⟨2, ![a, 1]⟩ : Shape).Idx → EReal)
    (w : (⟨2, ![f, n]⟩ : Shape).Idx → EReal) (p : Fin a) (q : Fin n) : proj x s w (ix2 p q) = projAt x s w p q := rfl

theorem mid_apply (agg : (⟨2, ![a, f]⟩ : Shape).Idx → EReal) (sIn : (⟨2, ![a, 1]⟩ : Shape).Idx → EReal)
    (b : (⟨2, ![1, f]⟩ : Shape).Idx → EReal) (sOut : (⟨2, ![a, 1]⟩ : Shape).Idx → EReal)
    (w : (⟨2, ![f, n]⟩ : Shape).Idx → EReal) (p : Fin a) (q : Fin n) :
    mid agg sIn b sOut w (ix2 p q) = midAt agg sIn b sOut w p q := rfl

theorem head_apply (agg : (⟨2, ![a, f]⟩ : Shape).Idx → EReal) (sIn : (⟨2, ![a, 1]⟩ : Shape).Idx → EReal)
    (b : (⟨2, ![1, f]⟩ : Shape).Idx → EReal) (wc : (⟨2, ![f, n]⟩ : Shape).Idx → EReal)
    (bc : (⟨2, ![1, n]⟩ : Shape).Idx → EReal) (p : Fin a) (q : Fin n) :
    head agg sIn b wc bc (ix2 p q) = headAt agg sIn b wc bc p q := rfl

/-! ## A tile body's spellings -/

/-- A tile body's activation — the aggregate times the scale column repeated across the lanes, plus the bias row repeated
    down the tile, the maximum with a splat zero — read at `(p, k)`. -/
theorem act_tile_apply (x0 : FVec Ideal ⟨2, ![a, f]⟩ .f32) (x1 : FVec Ideal ⟨2, ![a, 1]⟩ .f32) (x2 : FVec Ideal ⟨2, ![1, f]⟩ .f32)
    (c0 : (⟨2, ![a, f]⟩ : Shape).ShapeCasts ⟨2, ![a, f]⟩) (c1 : (⟨2, ![a, 1]⟩ : Shape).ShapeCasts ⟨2, ![a, 1]⟩)
    (c2 : (⟨2, ![1, f]⟩ : Shape).ShapeCasts ⟨2, ![1, f]⟩)
    (hb1 : (⟨2, ![a, 1]⟩ : Shape).Broadcasts ⟨2, ![a, f]⟩) (hb2 : (⟨2, ![1, f]⟩ : Shape).Broadcasts ⟨2, ![a, f]⟩)
    (p : Fin a) (k : Fin f) :
    maximumf (addf (mulf (shapeCast ⟨2, ![a, f]⟩ x0 c0) (broadcastTo ⟨2, ![a, f]⟩ (shapeCast ⟨2, ![a, 1]⟩ x1 c1) hb1))
          (broadcastTo ⟨2, ![a, f]⟩ (shapeCast ⟨2, ![1, f]⟩ x2 c2) hb2))
        (broadcast ⟨2, ![a, f]⟩ (Scalar.ofBits (F := Ideal) .f32 0x00000000#32)) (ix2 p k)
      = actAt x0 x1 x2 p k := by
  rw [maximumf_apply, addf_apply, mulf_apply, broadcast_apply]
  simp only [shapeCast_self]
  rw [Gcn.Lib.broadcastTo_a1_ab_apply _ hb1 p k, DotRecord.broadcastTo_1b_ab_apply _ hb2 p k]
  rfl

/-- A tile body's projection of scaled features, the product's factors and its result narrowed, read at `(p, q)`. -/
theorem proj_tile_apply {ψ : FTy} (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (hψ : ψ.bits < FTy.f32.bits)
    (x0 : FVec Ideal ⟨2, ![a, f]⟩ .f32) (x1 : FVec Ideal ⟨2, ![a, 1]⟩ .f32) (x2 : FVec Ideal ⟨2, ![f, n]⟩ .f32)
    (c1 : (⟨2, ![a, 1]⟩ : Shape).ShapeCasts ⟨2, ![a, 1]⟩) (hb1 : (⟨2, ![a, 1]⟩ : Shape).Broadcasts ⟨2, ![a, f]⟩)
    (p : Fin a) (q : Fin n) :
    truncf ψ (matmul dd prec
        (truncf ψ (mulf x0 (broadcastTo ⟨2, ![a, f]⟩ (shapeCast ⟨2, ![a, 1]⟩ x1 c1) hb1)) hψ)
        (truncf ψ x2 hψ) (constant ⟨2, ![a, n]⟩ .f32 0x00000000#32)) hψ (ix2 p q)
      = projAt x0 x1 x2 p q := by
  refine (truncf_apply _ hψ (ix2 p q)).trans ?_
  refine (DotRecord.matmul_zero_apply dd h1 h2 h3 h4 h5 h6 _ _ prec p q).trans (Finset.sum_congr rfl fun k _ => ?_)
  rw [truncf_apply, truncf_apply, mulf_apply, shapeCast_self, Gcn.Lib.broadcastTo_a1_ab_apply _ hb1 p k]

/-- A tile body's middle stage — the activation times the second scale column, narrowed, against the narrowed weights
    into a zero accumulator, the result narrowed — read at `(p, q)`. -/
theorem mid_tile_apply {ψ : FTy} (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (hψ : ψ.bits < FTy.f32.bits)
    (x0 : FVec Ideal ⟨2, ![a, f]⟩ .f32) (x1 : FVec Ideal ⟨2, ![a, 1]⟩ .f32) (x2 : FVec Ideal ⟨2, ![1, f]⟩ .f32)
    (x3 : FVec Ideal ⟨2, ![a, 1]⟩ .f32) (x4 : FVec Ideal ⟨2, ![f, n]⟩ .f32)
    (c0 : (⟨2, ![a, f]⟩ : Shape).ShapeCasts ⟨2, ![a, f]⟩) (c1 : (⟨2, ![a, 1]⟩ : Shape).ShapeCasts ⟨2, ![a, 1]⟩)
    (c2 : (⟨2, ![1, f]⟩ : Shape).ShapeCasts ⟨2, ![1, f]⟩)
    (hb1 : (⟨2, ![a, 1]⟩ : Shape).Broadcasts ⟨2, ![a, f]⟩) (hb2 : (⟨2, ![1, f]⟩ : Shape).Broadcasts ⟨2, ![a, f]⟩)
    (p : Fin a) (q : Fin n) :
    truncf ψ (matmul dd prec
        (truncf ψ (mulf
          (maximumf (addf (mulf (shapeCast ⟨2, ![a, f]⟩ x0 c0) (broadcastTo ⟨2, ![a, f]⟩ (shapeCast ⟨2, ![a, 1]⟩ x1 c1) hb1))
              (broadcastTo ⟨2, ![a, f]⟩ (shapeCast ⟨2, ![1, f]⟩ x2 c2) hb2))
            (broadcast ⟨2, ![a, f]⟩ (Scalar.ofBits (F := Ideal) .f32 0x00000000#32)))
          (broadcastTo ⟨2, ![a, f]⟩ (shapeCast ⟨2, ![a, 1]⟩ x3 c1) hb1)) hψ)
        (truncf ψ x4 hψ) (constant ⟨2, ![a, n]⟩ .f32 0x00000000#32)) hψ (ix2 p q)
      = midAt x0 x1 x2 x3 x4 p q := by
  refine (truncf_apply _ hψ (ix2 p q)).trans ?_
  refine (DotRecord.matmul_zero_apply dd h1 h2 h3 h4 h5 h6 _ _ prec p q).trans (Finset.sum_congr rfl fun k _ => ?_)
  rw [truncf_apply, truncf_apply, mulf_apply, act_tile_apply x0 x1 x2 c0 c1 c2 hb1 hb2 p k, shapeCast_self,
    Gcn.Lib.broadcastTo_a1_ab_apply _ hb1 p k]

/-- A tile body's class stage — the activation narrowed against the narrowed class weights into a zero accumulator, plus the
    class bias row repeated down the tile — read at `(p, q)`. -/
theorem head_tile_apply {ψ : FTy} (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision) (hψ : ψ.bits < FTy.f32.bits)
    (x0 : FVec Ideal ⟨2, ![a, f]⟩ .f32) (x1 : FVec Ideal ⟨2, ![a, 1]⟩ .f32) (x2 : FVec Ideal ⟨2, ![1, f]⟩ .f32)
    (x3 : FVec Ideal ⟨2, ![f, n]⟩ .f32) (x4 : FVec Ideal ⟨2, ![1, n]⟩ .f32)
    (c0 : (⟨2, ![a, f]⟩ : Shape).ShapeCasts ⟨2, ![a, f]⟩) (c1 : (⟨2, ![a, 1]⟩ : Shape).ShapeCasts ⟨2, ![a, 1]⟩)
    (c2 : (⟨2, ![1, f]⟩ : Shape).ShapeCasts ⟨2, ![1, f]⟩) (c4 : (⟨2, ![1, n]⟩ : Shape).ShapeCasts ⟨2, ![1, n]⟩)
    (hb1 : (⟨2, ![a, 1]⟩ : Shape).Broadcasts ⟨2, ![a, f]⟩) (hb2 : (⟨2, ![1, f]⟩ : Shape).Broadcasts ⟨2, ![a, f]⟩)
    (hb4 : (⟨2, ![1, n]⟩ : Shape).Broadcasts ⟨2, ![a, n]⟩) (p : Fin a) (q : Fin n) :
    addf (matmul dd prec
        (truncf ψ
          (maximumf (addf (mulf (shapeCast ⟨2, ![a, f]⟩ x0 c0) (broadcastTo ⟨2, ![a, f]⟩ (shapeCast ⟨2, ![a, 1]⟩ x1 c1) hb1))
              (broadcastTo ⟨2, ![a, f]⟩ (shapeCast ⟨2, ![1, f]⟩ x2 c2) hb2))
            (broadcast ⟨2, ![a, f]⟩ (Scalar.ofBits (F := Ideal) .f32 0x00000000#32))) hψ)
        (truncf ψ x3 hψ) (constant ⟨2, ![a, n]⟩ .f32 0x00000000#32))
      (broadcastTo ⟨2, ![a, n]⟩ (shapeCast ⟨2, ![1, n]⟩ x4 c4) hb4) (ix2 p q)
      = headAt x0 x1 x2 x3 x4 p q := by
  rw [addf_apply]
  unfold headAt
  refine congrArg₂ (· + ·) ((DotRecord.matmul_zero_apply dd h1 h2 h3 h4 h5 h6 _ _ prec p q).trans
    (Finset.sum_congr rfl fun k _ => ?_)) ?_
  · rw [truncf_apply, truncf_apply, act_tile_apply x0 x1 x2 c0 c1 c2 hb1 hb2 p k]
  · rw [shapeCast_self, DotRecord.broadcastTo_1b_ab_apply _ hb4 p q]

/-! ## A host program's spellings, the scales and biases arriving as vectors -/

/-- The host's activation — the aggregate times the scale vector repeated across the columns, plus the bias vector repeated
    down the rows, the maximum with a scalar zero repeated everywhere — read at `(p, k)`: the scale and the bias as the
    column and the row they are recast to. -/
theorem act_host_apply (agg : FVec Ideal ⟨2, ![a, f]⟩ .f32) (s : FVec Ideal ⟨1, ![a]⟩ .f32) (b : FVec Ideal ⟨1, ![f]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (hr1 : (⟨1, ![f]⟩ : Shape).BroadcastsInDim ⟨2, ![1, f]⟩ (![1] : Fin 1 → Fin 2))
    (hr2 : (⟨2, ![1, f]⟩ : Shape).BroadcastsInDim ⟨2, ![a, f]⟩ (![0, 1] : Fin 2 → Fin 2))
    (hz : (⟨0, ![]⟩ : Shape).BroadcastsInDim ⟨2, ![a, f]⟩ ![])
    (cs : (⟨1, ![a]⟩ : Shape).ShapeCasts ⟨2, ![a, 1]⟩) (cb : (⟨1, ![f]⟩ : Shape).ShapeCasts ⟨2, ![1, f]⟩)
    (p : Fin a) (k : Fin f) :
    maximumf (addf (mulf agg (broadcastInDim ⟨2, ![a, f]⟩ ![0, 1] hs2 (broadcastInDim ⟨2, ![a, 1]⟩ ![0] hs1 s)))
          (broadcastInDim ⟨2, ![a, f]⟩ ![0, 1] hr2 (broadcastInDim ⟨2, ![1, f]⟩ ![1] hr1 b)))
        (broadcastInDim ⟨2, ![a, f]⟩ ![] hz (constant (F := Ideal) ⟨0, ![]⟩ .f32 0x00000000#32)) (ix2 p k)
      = actAt agg (shapeCast ⟨2, ![a, 1]⟩ s cs) (shapeCast ⟨2, ![1, f]⟩ b cb) p k := by
  unfold actAt
  rw [maximumf_apply, addf_apply, mulf_apply, Hmu.Lib.bcastRows_apply s hs1 hs2 p k, Hmu.Lib.bcastCols_apply b hr1 hr2 p k,
    Hmu.Lib.bcast_const_apply _ hz (ix2 p k), Gcn.Lib.shapeCast_a_a1_apply s cs p 0, shapeCast_a_1a_apply b cb 0 k]

/-- The host's projection of scaled features as a whole array. -/
theorem proj_host_eq (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (x : FVec Ideal ⟨2, ![a, f]⟩ .f32) (s : FVec Ideal ⟨1, ![a]⟩ .f32) (w : FVec Ideal ⟨2, ![f, n]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (cs : (⟨1, ![a]⟩ : Shape).ShapeCasts ⟨2, ![a, 1]⟩) :
    Host.dotGeneral dd prec (mulf x (broadcastInDim ⟨2, ![a, f]⟩ ![0, 1] hs2 (broadcastInDim ⟨2, ![a, 1]⟩ ![0] hs1 s))) w
      = proj x (shapeCast ⟨2, ![a, 1]⟩ s cs) w := by
  funext i
  obtain ⟨p, q, rfl⟩ : ∃ (p : Fin a) (q : Fin n), i = ix2 p q := ⟨i 0, i 1, eq_ix2 i⟩
  show _ = projAt x (shapeCast ⟨2, ![a, 1]⟩ s cs) w p q
  unfold projAt
  refine (Bilinear.Host.dot_apply dd h1 h2 h3 h4 h5 h6 _ _ prec p q).trans (Finset.sum_congr rfl fun k _ => ?_)
  rw [mulf_apply, Hmu.Lib.bcastRows_apply s hs1 hs2 p k, Gcn.Lib.shapeCast_a_a1_apply s cs p 0]

/-- The host's middle stage as a whole array. -/
theorem mid_host_eq (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (agg : FVec Ideal ⟨2, ![a, f]⟩ .f32) (sIn : FVec Ideal ⟨1, ![a]⟩ .f32) (b : FVec Ideal ⟨1, ![f]⟩ .f32)
    (sOut : FVec Ideal ⟨1, ![a]⟩ .f32) (w : FVec Ideal ⟨2, ![f, n]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (hr1 : (⟨1, ![f]⟩ : Shape).BroadcastsInDim ⟨2, ![1, f]⟩ (![1] : Fin 1 → Fin 2))
    (hr2 : (⟨2, ![1, f]⟩ : Shape).BroadcastsInDim ⟨2, ![a, f]⟩ (![0, 1] : Fin 2 → Fin 2))
    (hz : (⟨0, ![]⟩ : Shape).BroadcastsInDim ⟨2, ![a, f]⟩ ![])
    (cs : (⟨1, ![a]⟩ : Shape).ShapeCasts ⟨2, ![a, 1]⟩) (cb : (⟨1, ![f]⟩ : Shape).ShapeCasts ⟨2, ![1, f]⟩) :
    Host.dotGeneral dd prec
        (mulf
          (maximumf (addf (mulf agg (broadcastInDim ⟨2, ![a, f]⟩ ![0, 1] hs2 (broadcastInDim ⟨2, ![a, 1]⟩ ![0] hs1 sIn)))
              (broadcastInDim ⟨2, ![a, f]⟩ ![0, 1] hr2 (broadcastInDim ⟨2, ![1, f]⟩ ![1] hr1 b)))
            (broadcastInDim ⟨2, ![a, f]⟩ ![] hz (constant (F := Ideal) ⟨0, ![]⟩ .f32 0x00000000#32)))
          (broadcastInDim ⟨2, ![a, f]⟩ ![0, 1] hs2 (broadcastInDim ⟨2, ![a, 1]⟩ ![0] hs1 sOut))) w
      = mid agg (shapeCast ⟨2, ![a, 1]⟩ sIn cs) (shapeCast ⟨2, ![1, f]⟩ b cb) (shapeCast ⟨2, ![a, 1]⟩ sOut cs) w := by
  funext i
  obtain ⟨p, q, rfl⟩ : ∃ (p : Fin a) (q : Fin n), i = ix2 p q := ⟨i 0, i 1, eq_ix2 i⟩
  show _ = midAt agg (shapeCast ⟨2, ![a, 1]⟩ sIn cs) (shapeCast ⟨2, ![1, f]⟩ b cb) (shapeCast ⟨2, ![a, 1]⟩ sOut cs) w p q
  unfold midAt
  refine (Bilinear.Host.dot_apply dd h1 h2 h3 h4 h5 h6 _ _ prec p q).trans (Finset.sum_congr rfl fun k _ => ?_)
  rw [mulf_apply, act_host_apply agg sIn b hs1 hs2 hr1 hr2 hz cs cb p k, Hmu.Lib.bcastRows_apply sOut hs1 hs2 p k,
    Gcn.Lib.shapeCast_a_a1_apply sOut cs p 0]

/-- The host's class stage as a whole array. -/
theorem head_host_eq (dd : DotDims ⟨2, ![a, f]⟩ ⟨2, ![f, n]⟩ ⟨2, ![a, n]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (prec : Option ContractPrecision)
    (agg : FVec Ideal ⟨2, ![a, f]⟩ .f32) (sIn : FVec Ideal ⟨1, ![a]⟩ .f32) (b : FVec Ideal ⟨1, ![f]⟩ .f32)
    (wc : FVec Ideal ⟨2, ![f, n]⟩ .f32) (bc : FVec Ideal ⟨1, ![n]⟩ .f32)
    (hs1 : (⟨1, ![a]⟩ : Shape).BroadcastsInDim ⟨2, ![a, 1]⟩ (![0] : Fin 1 → Fin 2))
    (hs2 : (⟨2, ![a, 1]⟩ : Shape).BroadcastsInDim ⟨2, ![a, f]⟩ (![0, 1] : Fin 2 → Fin 2))
    (hr1 : (⟨1, ![f]⟩ : Shape).BroadcastsInDim ⟨2, ![1, f]⟩ (![1] : Fin 1 → Fin 2))
    (hr2 : (⟨2, ![1, f]⟩ : Shape).BroadcastsInDim ⟨2, ![a, f]⟩ (![0, 1] : Fin 2 → Fin 2))
    (hz : (⟨0, ![]⟩ : Shape).BroadcastsInDim ⟨2, ![a, f]⟩ ![])
    (hc1 : (⟨1, ![n]⟩ : Shape).BroadcastsInDim ⟨2, ![1, n]⟩ (![1] : Fin 1 → Fin 2))
    (hc2 : (⟨2, ![1, n]⟩ : Shape).BroadcastsInDim ⟨2, ![a, n]⟩ (![0, 1] : Fin 2 → Fin 2))
    (cs : (⟨1, ![a]⟩ : Shape).ShapeCasts ⟨2, ![a, 1]⟩) (cb : (⟨1, ![f]⟩ : Shape).ShapeCasts ⟨2, ![1, f]⟩)
    (cc : (⟨1, ![n]⟩ : Shape).ShapeCasts ⟨2, ![1, n]⟩) :
    addf (Host.dotGeneral dd prec
        (maximumf (addf (mulf agg (broadcastInDim ⟨2, ![a, f]⟩ ![0, 1] hs2 (broadcastInDim ⟨2, ![a, 1]⟩ ![0] hs1 sIn)))
            (broadcastInDim ⟨2, ![a, f]⟩ ![0, 1] hr2 (broadcastInDim ⟨2, ![1, f]⟩ ![1] hr1 b)))
          (broadcastInDim ⟨2, ![a, f]⟩ ![] hz (constant (F := Ideal) ⟨0, ![]⟩ .f32 0x00000000#32))) wc)
      (broadcastInDim ⟨2, ![a, n]⟩ ![0, 1] hc2 (broadcastInDim ⟨2, ![1, n]⟩ ![1] hc1 bc))
      = head agg (shapeCast ⟨2, ![a, 1]⟩ sIn cs) (shapeCast ⟨2, ![1, f]⟩ b cb) wc (shapeCast ⟨2, ![1, n]⟩ bc cc) := by
  funext i
  obtain ⟨p, q, rfl⟩ : ∃ (p : Fin a) (q : Fin n), i = ix2 p q := ⟨i 0, i 1, eq_ix2 i⟩
  rw [addf_apply, head_apply]
  unfold headAt
  refine congrArg₂ (· + ·) ((Bilinear.Host.dot_apply dd h1 h2 h3 h4 h5 h6 _ _ prec p q).trans
    (Finset.sum_congr rfl fun k _ => ?_)) ?_
  · rw [act_host_apply agg sIn b hs1 hs2 hr1 hr2 hz cs cb p k]
  · rw [Hmu.Lib.bcastCols_apply bc hc1 hc2 p q, shapeCast_a_1a_apply bc cc 0 q]

end SymNorm

end
-- ==== Proof.Region1.lean ====
/-
  Region 1 of the kernel program: the second half of one graph-convolution layer fused with the first half of the
  next, row block by row block.

  Each of the 20 grid points takes 5000 rows of the aggregate, the matching 5000 entries of the per-node weight column,
  the whole bias row and the whole weight matrix, and leaves in its output block, at entry (p, q),

      (sum over k of max (agg (p, k) * d (p, 0) + b (0, k)) 0 * w (k, q)) * d (p, 0).

  Entry (p, q) of block t depends only on row 5000 t + p of the aggregate and of the weight column, so the blocks are
  the restrictions of one function of the whole arrays, and the 20 blocks tile the 100000 rows.
-/
import proofs.«176507_j11871289606581_2_alg».proof.Proof.KernelIdealFrameP
import proofs.«176507_j11871289606581_2_alg».proof.Proof.Spec
import proofs.«176507_j11871289606581_2_alg».proof.Proof.LibSymNorm
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.KernelIdeal.Region1

open Cert.KernelIdeal Cert.KernelIdeal.Gen

/-! ## The body's result at an entry of the block -/

/-- The stored tile at (p, q): the rectified, rescaled, biased aggregate of row p against column q of the weights,
    times the row's weight. The two narrowings are the identity on the extended reals and the matrix unit
    accumulates into zero, so the product is the plain sum over the 64 features. -/
theorem tile_apply (x0 : FVec Ideal S5000x64 .f32) (x2 : FVec Ideal S5000x1 .f32) (x6 : FVec Ideal S1x64 .f32)
    (x13 : FVec Ideal S64x64 .f32) (x16 : FVec Ideal S5000x1 .f32) (p : Fin 5000) (q : Fin 64) :
    k1_pay1 (F := Ideal) x0 x2 x6 x13 x16 (ix2 p q)
      = (∑ k : Fin 64, max (x0 (ix2 p k) * x2 (ix2 p 0) + x6 (ix2 0 k)) 0 * x13 (ix2 k q)) * x16 (ix2 p 0) := by
  unfold k1_pay1
  refine (mulf_apply _ _ (ix2 p q)).trans ?_
  refine congrArg₂ (· * ·) ?_ ?_
  · refine (DotRecord.matmul_zero_apply dot_S5000x64_S64x64_S5000x64_1_0_0_1_n_n rfl rfl rfl rfl rfl rfl _ _ none p q).trans
      (Finset.sum_congr rfl fun k _ => ?_)
    rw [truncf_apply, truncf_apply,
      SymNorm.act_tile_apply x0 x2 x6 shapeCasts_S5000x64_S5000x64 shapeCasts_S5000x1_S5000x1 shapeCasts_S1x64_S1x64
        broadcasts_S5000x1_S5000x64 broadcasts_S1x64_S5000x64 p k]
    unfold SymNorm.actAt
    rw [Ideal.ofBits_zero_f32]
  · rw [shapeCast_self]
    exact Gcn.Lib.broadcastTo_a1_ab_apply _ broadcasts_S5000x1_S5000x64 p q

/-- The stored tile at an entry, from what the four staged blocks hold on the rows and columns that entry reads: if row p of
    the aggregate block is row r of the whole aggregate, entry p of the weight block is entry r of the whole column, and
    the bias row and the weight matrix are staged whole, the tile's entry (p, q) is the whole-array function's entry (r, q). -/
theorem tile_entry (A0 : FVec Ideal S100000x64 .f32) (A1 : FVec Ideal S1x64 .f32) (A2 : FVec Ideal S100000x1 .f32)
    (A3 : FVec Ideal S64x64 .f32) (x0 : FVec Ideal S5000x64 .f32) (x1 : FVec Ideal S1x64 .f32)
    (x2 : FVec Ideal S5000x1 .f32) (x3 : FVec Ideal S64x64 .f32) (r : Fin 100000) (p : Fin 5000) (q : Fin 64)
    (h0 : ∀ k : Fin 64, x0 (ix2 p k) = A0 (ix2 r k)) (h1 : ∀ k : Fin 64, x1 (ix2 0 k) = A1 (ix2 0 k))
    (h2 : x2 (ix2 p 0) = A2 (ix2 r 0)) (h3 : ∀ k : Fin 64, x3 (ix2 k q) = A3 (ix2 k q)) :
    k1_pay1 (F := Ideal) x0 x2 x1 x3 x2 (ix2 p q) = GcnSpec.inner A0 A1 A2 A3 (ix2 r q) := by
  refine (tile_apply x0 x2 x1 x3 x2 p q).trans ?_
  refine ((GcnSpec.inner_apply A0 A1 A2 A3 r q).trans ?_).symm
  rw [h2]
  refine congrArg (· * A2 (ix2 r 0)) (Finset.sum_congr rfl fun k _ => ?_)
  rw [h0 k, h1 k, h3 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: at point t the aggregate, the weight column and the output are at block (t, 0),
    the bias row and the weight matrix at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array function of the arrays the region finds. -/
theorem flushed_eq (c : Dev nD) (t : Fin cfg1.N) :
    (dat1 (F := Ideal) V c).flushed 4 t = ((cfg1.win 4).blk t).view.read (Elt Ideal)
      (GcnSpec.inner (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets,
    View.ld_unit_zero (S := S1x64) zero_offsets, View.ld_unit_zero (S := S64x64) zero_offsets]
  obtain ⟨e00, e01, e10, e11, e20, e21, e30, e31, e40, e41⟩ := index_maps t
  have ht : t.val < 20 := t.isLt
  funext j
  obtain ⟨p, q, rfl⟩ : ∃ (p : Fin 5000) (q : Fin 64), j = ix2 p q := ⟨j 0, j 1, eq_ix2 j⟩
  have hp : p.val < 5000 := p.isLt
  refine (tile_entry (V c (Pipeline.arrRef spec1 0)) (V c (Pipeline.arrRef spec1 1)) (V c (Pipeline.arrRef spec1 2))
    (V c (Pipeline.arrRef spec1 3)) _ _ _ _ ⟨t.val * 5000 + p.val, by omega⟩ p q (fun k => ?_) (fun k => ?_) ?_ (fun k => ?_)).trans ?_
  · show V c (Pipeline.arrRef spec1 0) (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c (Pipeline.arrRef spec1 1) (((cfg1.win 1).blk t).view.emb (ix2 0 k)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c (Pipeline.arrRef spec1 2) (((cfg1.win 2).blk t).view.emb (ix2 p 0)) = _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · show V c (Pipeline.arrRef spec1 3) (((cfg1.win 3).blk t).view.emb (ix2 k q)) = _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · rw [View.read_apply]
    refine congrArg _ (funext fun a => Fin.ext ?_)
    match a with
    | ⟨0, _⟩ => show t.val * 5000 + p.val = win1_4.index t (0 : Fin 2) * 5000 + 1 * p.val; omega
    | ⟨1, _⟩ => show q.val = win1_4.index t (1 : Fin 2) * 64 + 1 * q.val; omega

/-- An index of the output array is in point t's block iff each coordinate is in the block's range on its axis. -/
theorem mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_call0_v28).slice (win1_4.rect t)).set ↔ _
  rw [View.set_slice_whole, Rect.mem_set_unit]
  exact Iff.rfl

/-- Every entry of the output array is in the block of the point its row falls in: row r belongs to point r / 5000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, by show (i 0).val / 5000 < 20; omega⟩, flush1_4 _, ?_⟩
  rw [mem_block]
  obtain ⟨-, -, -, -, -, -, -, -, e40, e41⟩ := index_maps ⟨(i 0).val / 5000, by show (i 0).val / 5000 < 20; omega⟩
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e41]; omega

/-- The output array after the region: the whole-array function of the arrays the region finds. -/
theorem final (c : Dev nD) :
    (dat1 (F := Ideal) V c).arrAt 4 cfg1.N
      = GcnSpec.inner (V c (Pipeline.arrRef spec1 0)) (V c (Pipeline.arrRef spec1 1)) (V c (Pipeline.arrRef spec1 2))
          (V c (Pipeline.arrRef spec1 3)) :=
  (dat1 (F := Ideal) V c).arrAt_eq_of_cover 4 _ (fun t _ => flushed_eq V c t) cover

end Cert.KernelIdeal.Region1

end
-- ==== Proof.Region2.lean ====
/-
  Region 2 of the kernel program: the second half of the second graph-convolution layer fused with the first half of
  the third, row block by row block; the weight matrix has 32 columns.

  Each of the 20 grid points takes 5000 rows of the aggregate, the matching 5000 entries of the per-node weight column,
  the whole bias row and the whole weight matrix, and leaves in its output block, at entry (p, q),

      (sum over k of max (agg (p, k) * d (p, 0) + b (0, k)) 0 * w (k, q)) * d (p, 0).

  Entry (p, q) of block t depends only on row 5000 t + p of the aggregate and of the weight column, so the blocks are
  the restrictions of one function of the whole arrays, and the 20 blocks tile the 100000 rows.
-/
import proofs.«176507_j11871289606581_2_alg».proof.Proof.KernelIdealFrameP
import proofs.«176507_j11871289606581_2_alg».proof.Proof.Spec
import proofs.«176507_j11871289606581_2_alg».proof.Proof.LibSymNorm
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.KernelIdeal.Region2

open Cert.KernelIdeal Cert.KernelIdeal.Gen

/-! ## The body's result at an entry of the block -/

/-- The stored tile at (p, q): the rectified, rescaled, biased aggregate of row p against column q of the weights,
    times the row's weight. The two narrowings are the identity on the extended reals and the matrix unit
    accumulates into zero, so the product is the plain sum over the 64 features. -/
theorem tile_apply (x0 : FVec Ideal S5000x64 .f32) (x2 : FVec Ideal S5000x1 .f32) (x6 : FVec Ideal S1x64 .f32)
    (x13 : FVec Ideal S64x32 .f32) (x16 : FVec Ideal S5000x1 .f32) (p : Fin 5000) (q : Fin 32) :
    k2_pay1 (F := Ideal) x0 x2 x6 x13 x16 (ix2 p q)
      = (∑ k : Fin 64, max (x0 (ix2 p k) * x2 (ix2 p 0) + x6 (ix2 0 k)) 0 * x13 (ix2 k q)) * x16 (ix2 p 0) := by
  unfold k2_pay1
  refine (mulf_apply _ _ (ix2 p q)).trans ?_
  refine congrArg₂ (· * ·) ?_ ?_
  · refine (DotRecord.matmul_zero_apply dot_S5000x64_S64x32_S5000x32_1_0_0_1_n_n rfl rfl rfl rfl rfl rfl _ _ none p q).trans
      (Finset.sum_congr rfl fun k _ => ?_)
    rw [truncf_apply, truncf_apply,
      SymNorm.act_tile_apply x0 x2 x6 shapeCasts_S5000x64_S5000x64 shapeCasts_S5000x1_S5000x1 shapeCasts_S1x64_S1x64
        broadcasts_S5000x1_S5000x64 broadcasts_S1x64_S5000x64 p k]
    unfold SymNorm.actAt
    rw [Ideal.ofBits_zero_f32]
  · rw [shapeCast_self]
    exact Gcn.Lib.broadcastTo_a1_ab_apply _ broadcasts_S5000x1_S5000x32 p q

/-- The stored tile at an entry, from what the four staged blocks hold on the rows and columns that entry reads: if row p of
    the aggregate block is row r of the whole aggregate, entry p of the weight block is entry r of the whole column, and
    the bias row and the weight matrix are staged whole, the tile's entry (p, q) is the whole-array function's entry (r, q). -/
theorem tile_entry (A0 : FVec Ideal S100000x64 .f32) (A1 : FVec Ideal S1x64 .f32) (A2 : FVec Ideal S100000x1 .f32)
    (A3 : FVec Ideal S64x32 .f32) (x0 : FVec Ideal S5000x64 .f32) (x1 : FVec Ideal S1x64 .f32)
    (x2 : FVec Ideal S5000x1 .f32) (x3 : FVec Ideal S64x32 .f32) (r : Fin 100000) (p : Fin 5000) (q : Fin 32)
    (h0 : ∀ k : Fin 64, x0 (ix2 p k) = A0 (ix2 r k)) (h1 : ∀ k : Fin 64, x1 (ix2 0 k) = A1 (ix2 0 k))
    (h2 : x2 (ix2 p 0) = A2 (ix2 r 0)) (h3 : ∀ k : Fin 64, x3 (ix2 k q) = A3 (ix2 k q)) :
    k2_pay1 (F := Ideal) x0 x2 x1 x3 x2 (ix2 p q) = GcnSpec.inner A0 A1 A2 A3 (ix2 r q) := by
  refine (tile_apply x0 x2 x1 x3 x2 p q).trans ?_
  refine ((GcnSpec.inner_apply A0 A1 A2 A3 r q).trans ?_).symm
  rw [h2]
  refine congrArg (· * A2 (ix2 r 0)) (Finset.sum_congr rfl fun k _ => ?_)
  rw [h0 k, h1 k, h3 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: at point t the aggregate, the weight column and the output are at block (t, 0),
    the bias row and the weight matrix at block (0, 0). -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the whole-array function of the arrays the region finds. -/
theorem flushed_eq (c : Dev nD) (t : Fin cfg2.N) :
    (dat2 (F := Ideal) V c).flushed 4 t = ((cfg2.win 4).blk t).view.read (Elt Ideal)
      (GcnSpec.inner (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S5000x1) zero_offsets,
    View.ld_unit_zero (S := S1x64) zero_offsets, View.ld_unit_zero (S := S64x32) zero_offsets]
  obtain ⟨e00, e01, e10, e11, e20, e21, e30, e31, e40, e41⟩ := index_maps t
  have ht : t.val < 20 := t.isLt
  funext j
  obtain ⟨p, q, rfl⟩ : ∃ (p : Fin 5000) (q : Fin 32), j = ix2 p q := ⟨j 0, j 1, eq_ix2 j⟩
  have hp : p.val < 5000 := p.isLt
  refine (tile_entry (V c (Pipeline.arrRef spec2 0)) (V c (Pipeline.arrRef spec2 1)) (V c (Pipeline.arrRef spec2 2))
    (V c (Pipeline.arrRef spec2 3)) _ _ _ _ ⟨t.val * 5000 + p.val, by omega⟩ p q (fun k => ?_) (fun k => ?_) ?_ (fun k => ?_)).trans ?_
  · show V c (Pipeline.arrRef spec2 0) (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · show V c (Pipeline.arrRef spec2 1) (((cfg2.win 1).blk t).view.emb (ix2 0 k)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · show V c (Pipeline.arrRef spec2 2) (((cfg2.win 2).blk t).view.emb (ix2 p 0)) = _
    refine congrArg _ (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  · show V c (Pipeline.arrRef spec2 3) (((cfg2.win 3).blk t).view.emb (ix2 k q)) = _
    refine congrArg _ (funext fun a => Fin.ext ?_)
    match a with
    | ⟨0, _⟩ => show win2_3.index t (0 : Fin 2) * 64 + 1 * k.val = k.val; omega
    | ⟨1, _⟩ => show win2_3.index t (1 : Fin 2) * 32 + 1 * q.val = q.val; omega
  · rw [View.read_apply]
    refine congrArg _ (funext fun a => Fin.ext ?_)
    match a with
    | ⟨0, _⟩ => show t.val * 5000 + p.val = win2_4.index t (0 : Fin 2) * 5000 + 1 * p.val; omega
    | ⟨1, _⟩ => show q.val = win2_4.index t (1 : Fin 2) * 32 + 1 * q.val; omega

/-- An index of the output array is in point t's block iff each coordinate is in the block's range on its axis. -/
theorem mem_block (t : Fin cfg2.N) (i : S100000x32.Idx) :
    i ∈ ((cfg2.win 4).blk t).view.set ↔ ∀ a : Fin 2, win2_4.index t a * S5000x32.size a ≤ (i a).val
      ∧ (i a).val < win2_4.index t a * S5000x32.size a + S5000x32.size a := by
  show i ∈ ((View.whole main_call0_v40).slice (win2_4.rect t)).set ↔ _
  rw [View.set_slice_whole, Rect.mem_set_unit]
  exact Iff.rfl

/-- Every entry of the output array is in the block of the point its row falls in: row r belongs to point r / 5000. -/
theorem cover (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  refine ⟨⟨(i 0).val / 5000, by show (i 0).val / 5000 < 20; omega⟩, flush2_4 _, ?_⟩
  rw [mem_block]
  obtain ⟨-, -, -, -, -, -, -, -, e40, e41⟩ := index_maps ⟨(i 0).val / 5000, by show (i 0).val / 5000 < 20; omega⟩
  intro a
  match a with
  | ⟨0, _⟩ =>
    show win2_4.index _ (0 : Fin 2) * 5000 ≤ (i 0).val ∧ (i 0).val < win2_4.index _ (0 : Fin 2) * 5000 + 5000
    rw [e40]; show (i 0).val / 5000 * 5000 ≤ (i 0).val ∧ (i 0).val < (i 0).val / 5000 * 5000 + 5000; omega
  | ⟨1, _⟩ =>
    show win2_4.index _ (1 : Fin 2) * 32 ≤ (i 1).val ∧ (i 1).val < win2_4.index _ (1 : Fin 2) * 32 + 32
    rw [e41]; omega

/-- The output array after the region: the whole-array function of the arrays the region finds. -/
theorem final (c : Dev nD) :
    (dat2 (F := Ideal) V c).arrAt 4 cfg2.N
      = GcnSpec.inner (V c (Pipeline.arrRef spec2 0)) (V c (Pipeline.arrRef spec2 1)) (V c (Pipeline.arrRef spec2 2))
          (V c (Pipeline.arrRef spec2 3)) :=
  (dat2 (F := Ideal) V c).arrAt_eq_of_cover 4 _ (fun t _ => flushed_eq V c t) cover

end Cert.KernelIdeal.Region2

end
-- ==== Proof.Region3.lean ====
/-
  The last dense stage of the graph convolution, from blocks to the whole array.

  The aggregate agg [100000, 32] is cut into 20 row blocks of 5000 rows; the weight column d [100000, 1] is cut the same
  way; the bias row b [1, 32] is one block. On each block the stage multiplies every row of the aggregate by that row's
  weight and adds the bias row: entry (p, k) of the block is agg(p,k) * d(p,0) + b(0,k). Row p of block t is row
  5000 t + p of the arrays, so the blocks written back are the restrictions of one function of the whole arrays,
  the rescaled and biased aggregate of the specification, and the 20 blocks tile the 100000 rows.
-/
import proofs.«176507_j11871289606581_2_alg».proof.Proof.KernelIdealFrameP
import proofs.«176507_j11871289606581_2_alg».proof.Proof.Spec
import proofs.«176507_j11871289606581_2_alg».proof.Proof.LibDotRecord
import proofs.«176507_j11871289606581_2_alg».proof.Proof.LibRowOps
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open Idealize.ShloMosaic Idealize.ShloMosaic.TcCoe Idealize.ShloMosaic.ValueIdx
open Idealize.ShloMosaic.Pipeline (Dat)

namespace Cert.KernelIdeal.Region3

open Cert.KernelIdeal Cert.KernelIdeal.Gen

/-- The zero offsets of a whole-block access, spelt as a constant function. -/
theorem zero_off : (![0, 0] : Fin 2 → Nat) = fun _ => 0 := funext fun a => by fin_cases a <;> rfl

/-- The body at entry (p, k) of a block: the aggregate's entry times its row's weight, plus the bias row's entry k. -/
theorem body_apply (x0 : Vec Ideal S5000x32 .f32) (x2 : Vec Ideal S5000x1 .f32) (x1 : Vec Ideal S1x32 .f32)
    (p : Fin 5000) (k : Fin 32) :
    k3_pay1 (F := Ideal) x0 x2 x1 (ix2 p k) = x0 (ix2 p k) * x2 (ix2 p 0) + x1 (ix2 0 k) := by
  unfold k3_pay1
  rw [addf_apply, mulf_apply]
  simp only [shapeCast_self]
  rw [Gcn.Lib.broadcastTo_a1_ab_apply _ _ p k, DotRecord.broadcastTo_1b_ab_apply _ _ p k]

/-- The blocks' index maps, decided over the 20 grid points: the aggregate's, the weight column's and the output's
    blocks move together down the rows, one block per point; the bias row's block stays at the origin. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Entry (p, k) of the aggregate's block at point t and entry (p, k) of the output's block at point t sit at the same
    place of their arrays: row 5000 t + p, column k. -/
theorem agg_place (t : Fin cfg3.N) (p : Fin 5000) (k : Fin 32) :
    ((cfg3.win 0).blk t).view.emb (ix2 p k) = ((cfg3.win 3).blk t).view.emb (ix2 p k) := by
  obtain ⟨e00, e01, e10, e11, e20, e21, e30, e31⟩ := index_facts t
  funext a; apply Fin.ext
  match a with
  | ⟨0, _⟩ => show win3_0.index t (0 : Fin 2) * 5000 + 1 * p.val = win3_3.index t (0 : Fin 2) * 5000 + 1 * p.val; omega
  | ⟨1, _⟩ => show win3_0.index t (1 : Fin 2) * 32 + 1 * k.val = win3_3.index t (1 : Fin 2) * 32 + 1 * k.val; omega

/-- Entry (p, 0) of the weight column's block at point t is the weight of the row that entry (p, k) of the output's
    block sits in. -/
theorem weight_place (t : Fin cfg3.N) (p : Fin 5000) (k : Fin 32) :
    ((cfg3.win 2).blk t).view.emb (ix2 p (0 : Fin 1))
      = ix2 ((((cfg3.win 3).blk t).view.emb (ix2 p k)) 0) (0 : Fin 1) := by
  obtain ⟨e00, e01, e10, e11, e20, e21, e30, e31⟩ := index_facts t
  funext a; apply Fin.ext
  match a with
  | ⟨0, _⟩ => show win3_2.index t (0 : Fin 2) * 5000 + 1 * p.val = win3_3.index t (0 : Fin 2) * 5000 + 1 * p.val; omega
  | ⟨1, _⟩ => show win3_2.index t (1 : Fin 2) * 1 + 1 * 0 = 0; omega

/-- Entry (0, k) of the bias row's one block is the bias of the column that entry (p, k) of the output's block sits in. -/
theorem bias_place (t : Fin cfg3.N) (p : Fin 5000) (k : Fin 32) :
    ((cfg3.win 1).blk t).view.emb (ix2 (0 : Fin 1) k)
      = ix2 (0 : Fin 1) ((((cfg3.win 3).blk t).view.emb (ix2 p k)) 1) := by
  obtain ⟨e00, e01, e10, e11, e20, e21, e30, e31⟩ := index_facts t
  funext a; apply Fin.ext
  match a with
  | ⟨0, _⟩ => show win3_1.index t (0 : Fin 2) * 1 + 1 * 0 = 0; omega
  | ⟨1, _⟩ => show win3_1.index t (1 : Fin 2) * 32 + 1 * k.val = win3_3.index t (1 : Fin 2) * 32 + 1 * k.val; omega

/-- An index of the output array is in point t's block exactly when each coordinate is in the block's range on its axis. -/
theorem mem_block (t : Fin cfg3.N) (i : S100000x32.Idx) :
    i ∈ ((cfg3.win 3).blk t).view.set
      ↔ ∀ a : Fin 2, win3_3.index t a * S5000x32.size a ≤ (i a).val
          ∧ (i a).val < win3_3.index t a * S5000x32.size a + S5000x32.size a := by
  show i ∈ ((View.whole main_v0).slice (win3_3.rect t)).set ↔ _
  rw [View.set_slice_whole, Rect.mem_set_unit]
  exact Iff.rfl

/-- The 20 row blocks tile the 100000 rows: row r is in the block of point r / 5000, and every point writes its block back. -/
theorem blocks_cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 20 := by decide
  obtain ⟨t, ht⟩ : ∃ t : Fin cfg3.N, t.val = (i 0).val / 5000 := ⟨⟨(i 0).val / 5000, by rw [hN]; omega⟩, rfl⟩
  obtain ⟨e00, e01, e10, e11, e20, e21, e30, e31⟩ := index_facts t
  refine ⟨t, flush3_3 t, ?_⟩
  rw [mem_block]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 32 ≤ (i 1).val ∧ (i 1).val < win3_3.index t (1 : Fin 2) * 32 + 32
    omega

/-- The specification's entry from entries of the three arrays: if an entry of the aggregate sits at a place of the
    output, an entry of the weight column in that place's row, and an entry of the bias row in that place's column, then
    the first times the second plus the third is the rescaled, biased aggregate at that place. -/
theorem entry_eq (A : FVec Ideal ⟨2, ![100000, 32]⟩ .f32) (B : FVec Ideal ⟨2, ![1, 32]⟩ .f32)
    (D : FVec Ideal ⟨2, ![100000, 1]⟩ .f32) (i0 i3 : (⟨2, ![100000, 32]⟩ : Shape).Idx)
    (i2 : (⟨2, ![100000, 1]⟩ : Shape).Idx) (i1 : (⟨2, ![1, 32]⟩ : Shape).Idx)
    (h0 : i0 = i3) (h2 : i2 = ix2 (i3 0) (0 : Fin 1)) (h1 : i1 = ix2 (0 : Fin 1) (i3 1)) :
    A i0 * D i2 + B i1 = GcnSpec.rescaled A B D i3 := by
  subst h0 h2 h1
  rfl

/-- What point t writes back is block t of the rescaled, biased aggregate of the whole arrays: the block's entry (p, k)
    is the body's result on the three input blocks, whose entries sit in row 5000 t + p, column k of the aggregate, in
    row 5000 t + p of the weight column and in column k of the bias row. -/
theorem block_written (V : (c : Dev nD) → (b : Ref sig .tc) → Buf (Elt Ideal) ((c : Thread nD τ).loc b)) (c : Dev nD)
    (t : Fin cfg3.N) :
    (dat3 (F := Ideal) V c).flushed 3 t
      = ((cfg3.win 3).blk t).view.read (Elt Ideal)
          (GcnSpec.rescaled (V c (Pipeline.arrRef spec3 0)) (V c (Pipeline.arrRef spec3 1))
            (V c (Pipeline.arrRef spec3 2))) := by
  show (cfg3.win 3).cut (grid3.coords t) ((dat3 V c).after 3 t) = _
  rw [after3_3]
  unfold out3_3
  rw [View.canon_unit_zero zero_off]
  simp only [View.ld_unit_zero (S := S5000x32) zero_off, View.ld_unit_zero (S := S5000x1) zero_off,
    View.ld_unit_zero (S := S1x32) zero_off]
  funext j
  obtain ⟨p, k, rfl⟩ : ∃ (p : Fin 5000) (k : Fin 32), j = ix2 p k := ⟨j 0, j 1, eq_ix2 j⟩
  refine (body_apply _ _ _ p k).trans ?_
  exact entry_eq (V c (Pipeline.arrRef spec3 0)) (V c (Pipeline.arrRef spec3 1)) (V c (Pipeline.arrRef spec3 2))
    _ _ _ _ (agg_place t p k) (weight_place t p k) (bias_place t p k)

/-- The output array after the region: the rescaled, biased aggregate of the arrays the region finds. -/
theorem final (V : (c : Dev nD) → (b : Ref sig .tc) → Buf (Elt Ideal) ((c : Thread nD τ).loc b)) (c : Dev nD) :
    (dat3 (F := Ideal) V c).arrAt 3 cfg3.N
      = GcnSpec.rescaled (V c (Pipeline.arrRef spec3 0)) (V c (Pipeline.arrRef spec3 1))
          (V c (Pipeline.arrRef spec3 2)) :=
  (dat3 (F := Ideal) V c).arrAt_eq_of_cover 3 _ (fun t _ => block_written V c t) blocks_cover

end Cert.KernelIdeal.Region3

end
-- ==== Proof.KernelValue.lean ====
/-
  The kernel program's result buffer, after the run, as a function of the argument arrays.

  @main alternates four stretches of host operations with four pallas_call regions. The contents of the TensorCore's buffers
  at the eight segment boundaries are a fold from the launch memory: a host stretch applies its operations, a region leaves
  in each of its arrays what its write-backs cover it with and every other buffer as it found it. Walking the fold: the
  first stretch computes the sources, the targets and the weight column from the edge array; region 0 leaves the first
  layer's scaled projection; each later stretch gathers the previous region's result at the sources and accumulates it at the
  targets; regions 1 and 2 rescale, bias and rectify that aggregate and project it for the next layer; region 3 rescales
  and biases the last aggregate. Sources, targets, weights and arguments are written once and read unchanged later: no later
  stretch writes them and no region has them as an output.
-/
import proofs.«176507_j11871289606581_2_alg».proof.Proof.KernelIdealFrameP
import proofs.«176507_j11871289606581_2_alg».proof.Proof.KernelTerms
import proofs.«176507_j11871289606581_2_alg».proof.Proof.KernelHostOps
import proofs.«176507_j11871289606581_2_alg».proof.Proof.Region0
import proofs.«176507_j11871289606581_2_alg».proof.Proof.Region1
import proofs.«176507_j11871289606581_2_alg».proof.Proof.Region2
import proofs.«176507_j11871289606581_2_alg».proof.Proof.Region3
import Idealize.ShloMosaic.Lib.StableHlo.Run
import Idealize.ShloMosaic.PureOps.Ideal

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.Terms

variable (m : (ℓ : Loc nD τ sig) → Buf (Elt Ideal) ℓ) (ρ : Dev nD → PrngReg)

/-- A stretch of host operations leaves a buffer none of them writes as it found it: the goal
    `StableHlo.after ops W b = W b`, each operation's written buffer compared with `b`. -/
macro "host_keep" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The first stretch: sources, targets, the weight column; the arguments as launched -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keep

theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keep

theorem W1_v3 (c : Dev nD) :
    (W1 m ρ c (Proc.devRef .tc main_call0_v3) : (⟨S1700000, .i32⟩ : BufTy).Contents (Elt Ideal))
      = src (F := Ideal) (m ((c : Thread nD τ).loc main_arg1)) := by
  dsimp only [W1]
  rw [HostPlain.ops0_eq]
  dsimp only [HostPlain.ops0]
  after_results
  rfl

theorem W1_v6 (c : Dev nD) :
    (W1 m ρ c (Proc.devRef .tc main_call0_v6) : (⟨S1700000, .i32⟩ : BufTy).Contents (Elt Ideal))
      = dst (F := Ideal) (m ((c : Thread nD τ).loc main_arg1)) := by
  dsimp only [W1]
  rw [HostPlain.ops0_eq]
  dsimp only [HostPlain.ops0]
  after_results
  rfl

set_option maxHeartbeats 4000000 in
theorem W1_v15 (c : Dev nD) :
    (W1 m ρ c (Proc.devRef .tc main_call0_v15) : (⟨S100000x1, .f32⟩ : BufTy).Contents (Elt Ideal))
      = dcol (F := Ideal) (m ((c : Thread nD τ).loc main_arg1)) := by
  dsimp only [W1]
  rw [HostPlain.ops0_eq]
  dsimp only [HostPlain.ops0]
  after_results_simp <;> rfl

/-! ## What is written once and read unchanged later

Each lemma says a boundary's contents at a buffer are the previous boundary's: a host stretch that does not write the buffer,
a region that does not have it as an output (an input window's array is left as entered). -/

theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keep

theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keep

theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keep

theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  host_keep

theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  host_keep

theorem W2_v3 (c : Dev nD) : W2 m ρ c (Proc.devRef .tc main_call0_v3) = W1 m ρ c (Proc.devRef .tc main_call0_v3) :=
  W2_of_ne m ρ c main_call0_v3 (by decide)

theorem W2_v6 (c : Dev nD) : W2 m ρ c (Proc.devRef .tc main_call0_v6) = W1 m ρ c (Proc.devRef .tc main_call0_v6) :=
  W2_of_ne m ρ c main_call0_v6 (by decide)

theorem W2_v15 (c : Dev nD) : W2 m ρ c (Proc.devRef .tc main_call0_v15) = W1 m ρ c (Proc.devRef .tc main_call0_v15) :=
  (W2_arr m ρ c 2).trans (((dat0 (V1 m ρ) c).arrAt_in 2 rfl _).trans (A_eq0 (V1 m ρ) c 2))

theorem W2_arg3 (c : Dev nD) : W2 m ρ c (Proc.devRef .tc main_arg3) = W1 m ρ c (Proc.devRef .tc main_arg3) :=
  W2_of_ne m ρ c main_arg3 (by decide)

theorem W2_arg4 (c : Dev nD) : W2 m ρ c (Proc.devRef .tc main_arg4) = W1 m ρ c (Proc.devRef .tc main_arg4) :=
  W2_of_ne m ρ c main_arg4 (by decide)

theorem W2_arg5 (c : Dev nD) : W2 m ρ c (Proc.devRef .tc main_arg5) = W1 m ρ c (Proc.devRef .tc main_arg5) :=
  W2_of_ne m ρ c main_arg5 (by decide)

theorem W2_arg6 (c : Dev nD) : W2 m ρ c (Proc.devRef .tc main_arg6) = W1 m ρ c (Proc.devRef .tc main_arg6) :=
  W2_of_ne m ρ c main_arg6 (by decide)

theorem W2_arg7 (c : Dev nD) : W2 m ρ c (Proc.devRef .tc main_arg7) = W1 m ρ c (Proc.devRef .tc main_arg7) :=
  W2_of_ne m ρ c main_arg7 (by decide)

theorem W3_v3 (c : Dev nD) : W3 m ρ c (Proc.devRef .tc main_call0_v3) = W2 m ρ c (Proc.devRef .tc main_call0_v3) := by
  show StableHlo.after hostOps1 (W2 m ρ c) (Proc.devRef .tc main_call0_v3) = W2 m ρ c (Proc.devRef .tc main_call0_v3)
  host_keep

theorem W3_v6 (c : Dev nD) : W3 m ρ c (Proc.devRef .tc main_call0_v6) = W2 m ρ c (Proc.devRef .tc main_call0_v6) := by
  show StableHlo.after hostOps1 (W2 m ρ c) (Proc.devRef .tc main_call0_v6) = W2 m ρ c (Proc.devRef .tc main_call0_v6)
  host_keep

theorem W3_v15 (c : Dev nD) : W3 m ρ c (Proc.devRef .tc main_call0_v15) = W2 m ρ c (Proc.devRef .tc main_call0_v15) := by
  show StableHlo.after hostOps1 (W2 m ρ c) (Proc.devRef .tc main_call0_v15) = W2 m ρ c (Proc.devRef .tc main_call0_v15)
  host_keep

theorem W3_arg4 (c : Dev nD) : W3 m ρ c (Proc.devRef .tc main_arg4) = W2 m ρ c (Proc.devRef .tc main_arg4) := by
  show StableHlo.after hostOps1 (W2 m ρ c) (Proc.devRef .tc main_arg4) = W2 m ρ c (Proc.devRef .tc main_arg4)
  host_keep

theorem W3_arg5 (c : Dev nD) : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  host_keep

theorem W3_arg6 (c : Dev nD) : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  host_keep

theorem W3_arg7 (c : Dev nD) : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  host_keep

theorem W4_v3 (c : Dev nD) : W4 m ρ c (Proc.devRef .tc main_call0_v3) = W3 m ρ c (Proc.devRef .tc main_call0_v3) :=
  W4_of_ne m ρ c main_call0_v3 (by decide)

theorem W4_v6 (c : Dev nD) : W4 m ρ c (Proc.devRef .tc main_call0_v6) = W3 m ρ c (Proc.devRef .tc main_call0_v6) :=
  W4_of_ne m ρ c main_call0_v6 (by decide)

theorem W4_v15 (c : Dev nD) : W4 m ρ c (Proc.devRef .tc main_call0_v15) = W3 m ρ c (Proc.devRef .tc main_call0_v15) :=
  (W4_arr m ρ c 2).trans (((dat1 (V3 m ρ) c).arrAt_in 2 rfl _).trans (A_eq1 (V3 m ρ) c 2))

theorem W4_arg5 (c : Dev nD) : W4 m ρ c (Proc.devRef .tc main_arg5) = W3 m ρ c (Proc.devRef .tc main_arg5) :=
  W4_of_ne m ρ c main_arg5 (by decide)

theorem W4_arg6 (c : Dev nD) : W4 m ρ c (Proc.devRef .tc main_arg6) = W3 m ρ c (Proc.devRef .tc main_arg6) :=
  W4_of_ne m ρ c main_arg6 (by decide)

theorem W4_arg7 (c : Dev nD) : W4 m ρ c (Proc.devRef .tc main_arg7) = W3 m ρ c (Proc.devRef .tc main_arg7) :=
  W4_of_ne m ρ c main_arg7 (by decide)

theorem W5_v3 (c : Dev nD) : W5 m ρ c (Proc.devRef .tc main_call0_v3) = W4 m ρ c (Proc.devRef .tc main_call0_v3) := by
  show StableHlo.after hostOps2 (W4 m ρ c) (Proc.devRef .tc main_call0_v3) = W4 m ρ c (Proc.devRef .tc main_call0_v3)
  host_keep

theorem W5_v6 (c : Dev nD) : W5 m ρ c (Proc.devRef .tc main_call0_v6) = W4 m ρ c (Proc.devRef .tc main_call0_v6) := by
  show StableHlo.after hostOps2 (W4 m ρ c) (Proc.devRef .tc main_call0_v6) = W4 m ρ c (Proc.devRef .tc main_call0_v6)
  host_keep

theorem W5_v15 (c : Dev nD) : W5 m ρ c (Proc.devRef .tc main_call0_v15) = W4 m ρ c (Proc.devRef .tc main_call0_v15) := by
  show StableHlo.after hostOps2 (W4 m ρ c) (Proc.devRef .tc main_call0_v15) = W4 m ρ c (Proc.devRef .tc main_call0_v15)
  host_keep

theorem W5_arg6 (c : Dev nD) : W5 m ρ c (Proc.devRef .tc main_arg6) = W4 m ρ c (Proc.devRef .tc main_arg6) := by
  show StableHlo.after hostOps2 (W4 m ρ c) (Proc.devRef .tc main_arg6) = W4 m ρ c (Proc.devRef .tc main_arg6)
  host_keep

theorem W5_arg7 (c : Dev nD) : W5 m ρ c (Proc.devRef .tc main_arg7) = W4 m ρ c (Proc.devRef .tc main_arg7) := by
  show StableHlo.after hostOps2 (W4 m ρ c) (Proc.devRef .tc main_arg7) = W4 m ρ c (Proc.devRef .tc main_arg7)
  host_keep

theorem W6_v3 (c : Dev nD) : W6 m ρ c (Proc.devRef .tc main_call0_v3) = W5 m ρ c (Proc.devRef .tc main_call0_v3) :=
  W6_of_ne m ρ c main_call0_v3 (by decide)

theorem W6_v6 (c : Dev nD) : W6 m ρ c (Proc.devRef .tc main_call0_v6) = W5 m ρ c (Proc.devRef .tc main_call0_v6) :=
  W6_of_ne m ρ c main_call0_v6 (by decide)

theorem W6_v15 (c : Dev nD) : W6 m ρ c (Proc.devRef .tc main_call0_v15) = W5 m ρ c (Proc.devRef .tc main_call0_v15) :=
  (W6_arr m ρ c 2).trans (((dat2 (V5 m ρ) c).arrAt_in 2 rfl _).trans (A_eq2 (V5 m ρ) c 2))

theorem W6_arg7 (c : Dev nD) : W6 m ρ c (Proc.devRef .tc main_arg7) = W5 m ρ c (Proc.devRef .tc main_arg7) :=
  W6_of_ne m ρ c main_arg7 (by decide)

theorem W7_v15 (c : Dev nD) : W7 m ρ c (Proc.devRef .tc main_call0_v15) = W6 m ρ c (Proc.devRef .tc main_call0_v15) := by
  show StableHlo.after hostOps3 (W6 m ρ c) (Proc.devRef .tc main_call0_v15) = W6 m ρ c (Proc.devRef .tc main_call0_v15)
  host_keep

/-! ### The same, composed back to the first stretch -/

theorem src_at2 (c : Dev nD) : (W2 m ρ c (Proc.devRef .tc main_call0_v3) : (⟨S1700000, .i32⟩ : BufTy).Contents (Elt Ideal)) = src (F := Ideal) (m ((c : Thread nD τ).loc main_arg1)) :=
  (W2_v3 m ρ c).trans (W1_v3 m ρ c)
theorem dst_at2 (c : Dev nD) : (W2 m ρ c (Proc.devRef .tc main_call0_v6) : (⟨S1700000, .i32⟩ : BufTy).Contents (Elt Ideal)) = dst (F := Ideal) (m ((c : Thread nD τ).loc main_arg1)) :=
  (W2_v6 m ρ c).trans (W1_v6 m ρ c)
theorem src_at4 (c : Dev nD) : (W4 m ρ c (Proc.devRef .tc main_call0_v3) : (⟨S1700000, .i32⟩ : BufTy).Contents (Elt Ideal)) = src (F := Ideal) (m ((c : Thread nD τ).loc main_arg1)) :=
  ((W4_v3 m ρ c).trans (W3_v3 m ρ c)).trans (src_at2 m ρ c)
theorem dst_at4 (c : Dev nD) : (W4 m ρ c (Proc.devRef .tc main_call0_v6) : (⟨S1700000, .i32⟩ : BufTy).Contents (Elt Ideal)) = dst (F := Ideal) (m ((c : Thread nD τ).loc main_arg1)) :=
  ((W4_v6 m ρ c).trans (W3_v6 m ρ c)).trans (dst_at2 m ρ c)
theorem src_at6 (c : Dev nD) : (W6 m ρ c (Proc.devRef .tc main_call0_v3) : (⟨S1700000, .i32⟩ : BufTy).Contents (Elt Ideal)) = src (F := Ideal) (m ((c : Thread nD τ).loc main_arg1)) :=
  ((W6_v3 m ρ c).trans (W5_v3 m ρ c)).trans (src_at4 m ρ c)
theorem dst_at6 (c : Dev nD) : (W6 m ρ c (Proc.devRef .tc main_call0_v6) : (⟨S1700000, .i32⟩ : BufTy).Contents (Elt Ideal)) = dst (F := Ideal) (m ((c : Thread nD τ).loc main_arg1)) :=
  ((W6_v6 m ρ c).trans (W5_v6 m ρ c)).trans (dst_at4 m ρ c)
theorem dcol_at3 (c : Dev nD) : (W3 m ρ c (Proc.devRef .tc main_call0_v15) : (⟨S100000x1, .f32⟩ : BufTy).Contents (Elt Ideal)) = dcol (F := Ideal) (m ((c : Thread nD τ).loc main_arg1)) :=
  (W3_v15 m ρ c).trans ((W2_v15 m ρ c).trans (W1_v15 m ρ c))
theorem dcol_at5 (c : Dev nD) : (W5 m ρ c (Proc.devRef .tc main_call0_v15) : (⟨S100000x1, .f32⟩ : BufTy).Contents (Elt Ideal)) = dcol (F := Ideal) (m ((c : Thread nD τ).loc main_arg1)) :=
  ((W5_v15 m ρ c).trans (W4_v15 m ρ c)).trans (dcol_at3 m ρ c)
theorem dcol_at7 (c : Dev nD) : (W7 m ρ c (Proc.devRef .tc main_call0_v15) : (⟨S100000x1, .f32⟩ : BufTy).Contents (Elt Ideal)) = dcol (F := Ideal) (m ((c : Thread nD τ).loc main_arg1)) :=
  ((W7_v15 m ρ c).trans (W6_v15 m ρ c)).trans (dcol_at5 m ρ c)
theorem arg3_at2 (c : Dev nD) : W2 m ρ c (Proc.devRef .tc main_arg3) = m ((c : Thread nD τ).loc main_arg3) :=
  (W2_arg3 m ρ c).trans (W1_arg3 m ρ c)
theorem arg4_at3 (c : Dev nD) : W3 m ρ c (Proc.devRef .tc main_arg4) = m ((c : Thread nD τ).loc main_arg4) :=
  (W3_arg4 m ρ c).trans ((W2_arg4 m ρ c).trans (W1_arg4 m ρ c))
theorem arg5_at4 (c : Dev nD) : W4 m ρ c (Proc.devRef .tc main_arg5) = m ((c : Thread nD τ).loc main_arg5) :=
  (W4_arg5 m ρ c).trans ((W3_arg5 m ρ c).trans ((W2_arg5 m ρ c).trans (W1_arg5 m ρ c)))
theorem arg6_at5 (c : Dev nD) : W5 m ρ c (Proc.devRef .tc main_arg6) = m ((c : Thread nD τ).loc main_arg6) :=
  (W5_arg6 m ρ c).trans ((W4_arg6 m ρ c).trans ((W3_arg6 m ρ c).trans ((W2_arg6 m ρ c).trans (W1_arg6 m ρ c))))
theorem arg7_at6 (c : Dev nD) : W6 m ρ c (Proc.devRef .tc main_arg7) = m ((c : Thread nD τ).loc main_arg7) :=
  (W6_arg7 m ρ c).trans ((W5_arg7 m ρ c).trans ((W4_arg7 m ρ c).trans ((W3_arg7 m ρ c).trans ((W2_arg7 m ρ c).trans (W1_arg7 m ρ c)))))

/-! ## Region 0: the first layer's scaled projection -/

theorem W2_v16 (c : Dev nD) :
    (W2 m ρ c (Proc.devRef .tc main_call0_v16) : (⟨S100000x64, .f32⟩ : BufTy).Contents (Elt Ideal)) = hs1 (m ((c : Thread nD τ).loc main_arg0)) (m ((c : Thread nD τ).loc main_arg1)) (m ((c : Thread nD τ).loc main_arg2)) := by
  refine ((W2_arr m ρ c 3).trans (Cert.KernelIdeal.Region0.final (V1 m ρ) c)).trans ?_
  show GcnSpec.scaledProj (W1 m ρ c (Proc.devRef .tc main_arg0)) (W1 m ρ c (Proc.devRef .tc main_arg2)) (W1 m ρ c (Proc.devRef .tc main_call0_v15)) = _
  rw [W1_arg0 m ρ c, W1_arg2 m ρ c, W1_v15 m ρ c]
  rfl

/-! ## The stretch after region 0, and region 1 -/

/-- The stretch after region 0: the region's result gathered at the sources and accumulated at the targets. -/
theorem W3_v26 (c : Dev nD) :
    (W3 m ρ c (Proc.devRef .tc main_call0_v26) : (⟨S100000x64, .f32⟩ : BufTy).Contents (Elt Ideal))
      = nbrSum64 (F := Ideal) (m ((c : Thread nD τ).loc main_arg1)) (W2 m ρ c (Proc.devRef .tc main_call0_v16) : (⟨S100000x64, .f32⟩ : BufTy).Contents (Elt Ideal)) := by
  have h : (W3 m ρ c (Proc.devRef .tc main_call0_v26) : (⟨S100000x64, .f32⟩ : BufTy).Contents (Elt Ideal))
      = Host.scatterAdd (F := Ideal) scatter_S100000x64_S1700000x1_S1700000x64_1_0_0_1 (broadcastInDim S100000x64 ![] bcast_S_S100000x64 (constant (F := Ideal) S_ .f32 0x00000000#32))
          (broadcastInDim S1700000x1 ![0] bcast_S1700000_S1700000x1_0 (W2 m ρ c (Proc.devRef .tc main_call0_v6) : (⟨S1700000, .i32⟩ : BufTy).Contents (Elt Ideal)))
          (Host.gather gather_S100000x64_S1700000x1_S1700000x64_1_0_n_n_0_1_164 (W2 m ρ c (Proc.devRef .tc main_call0_v16) : (⟨S100000x64, .f32⟩ : BufTy).Contents (Elt Ideal))
            (broadcastInDim S1700000x1 ![0] bcast_S1700000_S1700000x1_0
              (select (cmpi .slt (W2 m ρ c (Proc.devRef .tc main_call0_v3) : (⟨S1700000, .i32⟩ : BufTy).Contents (Elt Ideal)) (broadcastInDim S1700000 ![] bcast_S_S1700000 (constantI S_ 32 0#32)))
                (addi (W2 m ρ c (Proc.devRef .tc main_call0_v3) : (⟨S1700000, .i32⟩ : BufTy).Contents (Elt Ideal)) (broadcastInDim S1700000 ![] bcast_S_S1700000 (constantI S_ 32 100000#32))) (W2 m ρ c (Proc.devRef .tc main_call0_v3) : (⟨S1700000, .i32⟩ : BufTy).Contents (Elt Ideal))))) := by
    dsimp only [W3]
    rw [HostPlain.ops1_eq]
    dsimp only [HostPlain.ops1]
    after_results_simp <;> rfl
  rw [h, dst_at2 m ρ c, src_at2 m ρ c]
  rfl

/-- The same stretch reshapes the next bias vector to a row. -/
theorem W3_v27 (c : Dev nD) :
    (W3 m ρ c (Proc.devRef .tc main_call0_v27) : (⟨S1x64, .f32⟩ : BufTy).Contents (Elt Ideal)) = row64 (F := Ideal) (m ((c : Thread nD τ).loc main_arg3)) := by
  have h : (W3 m ρ c (Proc.devRef .tc main_call0_v27) : (⟨S1x64, .f32⟩ : BufTy).Contents (Elt Ideal))
      = row64 (F := Ideal) (W2 m ρ c (Proc.devRef .tc main_arg3) : (⟨S64, .f32⟩ : BufTy).Contents (Elt Ideal)) := by
    dsimp only [W3]
    rw [HostPlain.ops1_eq]
    dsimp only [HostPlain.ops1]
    after_results_simp <;> rfl
  rw [h, arg3_at2 m ρ c]

theorem W4_v28 (c : Dev nD) :
    (W4 m ρ c (Proc.devRef .tc main_call0_v28) : (⟨S100000x64, .f32⟩ : BufTy).Contents (Elt Ideal)) = hs2 (m ((c : Thread nD τ).loc main_arg0)) (m ((c : Thread nD τ).loc main_arg1)) (m ((c : Thread nD τ).loc main_arg2)) (m ((c : Thread nD τ).loc main_arg3)) (m ((c : Thread nD τ).loc main_arg4)) := by
  refine ((W4_arr m ρ c 4).trans (Cert.KernelIdeal.Region1.final (V3 m ρ) c)).trans ?_
  show GcnSpec.inner (W3 m ρ c (Proc.devRef .tc main_call0_v26)) (W3 m ρ c (Proc.devRef .tc main_call0_v27)) (W3 m ρ c (Proc.devRef .tc main_call0_v15))
      (W3 m ρ c (Proc.devRef .tc main_arg4)) = _
  rw [W3_v26 m ρ c, W3_v27 m ρ c, dcol_at3 m ρ c, arg4_at3 m ρ c, W2_v16 m ρ c]
  rfl

/-! ## The stretch after region 1, and region 2 -/

/-- The stretch after region 1: the region's result gathered at the sources and accumulated at the targets. -/
theorem W5_v38 (c : Dev nD) :
    (W5 m ρ c (Proc.devRef .tc main_call0_v38) : (⟨S100000x64, .f32⟩ : BufTy).Contents (Elt Ideal))
      = nbrSum64 (F := Ideal) (m ((c : Thread nD τ).loc main_arg1)) (W4 m ρ c (Proc.devRef .tc main_call0_v28) : (⟨S100000x64, .f32⟩ : BufTy).Contents (Elt Ideal)) := by
  have h : (W5 m ρ c (Proc.devRef .tc main_call0_v38) : (⟨S100000x64, .f32⟩ : BufTy).Contents (Elt Ideal))
      = Host.scatterAdd (F := Ideal) scatter_S100000x64_S1700000x1_S1700000x64_1_0_0_1 (broadcastInDim S100000x64 ![] bcast_S_S100000x64 (constant (F := Ideal) S_ .f32 0x00000000#32))
          (broadcastInDim S1700000x1 ![0] bcast_S1700000_S1700000x1_0 (W4 m ρ c (Proc.devRef .tc main_call0_v6) : (⟨S1700000, .i32⟩ : BufTy).Contents (Elt Ideal)))
          (Host.gather gather_S100000x64_S1700000x1_S1700000x64_1_0_n_n_0_1_164 (W4 m ρ c (Proc.devRef .tc main_call0_v28) : (⟨S100000x64, .f32⟩ : BufTy).Contents (Elt Ideal))
            (broadcastInDim S1700000x1 ![0] bcast_S1700000_S1700000x1_0
              (select (cmpi .slt (W4 m ρ c (Proc.devRef .tc main_call0_v3) : (⟨S1700000, .i32⟩ : BufTy).Contents (Elt Ideal)) (broadcastInDim S1700000 ![] bcast_S_S1700000 (constantI S_ 32 0#32)))
                (addi (W4 m ρ c (Proc.devRef .tc main_call0_v3) : (⟨S1700000, .i32⟩ : BufTy).Contents (Elt Ideal)) (broadcastInDim S1700000 ![] bcast_S_S1700000 (constantI S_ 32 100000#32))) (W4 m ρ c (Proc.devRef .tc main_call0_v3) : (⟨S1700000, .i32⟩ : BufTy).Contents (Elt Ideal))))) := by
    dsimp only [W5]
    rw [HostPlain.ops2_eq]
    dsimp only [HostPlain.ops2]
    after_results_simp <;> rfl
  rw [h, dst_at4 m ρ c, src_at4 m ρ c]
  rfl

/-- The same stretch reshapes the next bias vector to a row. -/
theorem W5_v39 (c : Dev nD) :
    (W5 m ρ c (Proc.devRef .tc main_call0_v39) : (⟨S1x64, .f32⟩ : BufTy).Contents (Elt Ideal)) = row64 (F := Ideal) (m ((c : Thread nD τ).loc main_arg5)) := by
  have h : (W5 m ρ c (Proc.devRef .tc main_call0_v39) : (⟨S1x64, .f32⟩ : BufTy).Contents (Elt Ideal))
      = row64 (F := Ideal) (W4 m ρ c (Proc.devRef .tc main_arg5) : (⟨S64, .f32⟩ : BufTy).Contents (Elt Ideal)) := by
    dsimp only [W5]
    rw [HostPlain.ops2_eq]
    dsimp only [HostPlain.ops2]
    after_results_simp <;> rfl
  rw [h, arg5_at4 m ρ c]

theorem W6_v40 (c : Dev nD) :
    (W6 m ρ c (Proc.devRef .tc main_call0_v40) : (⟨S100000x32, .f32⟩ : BufTy).Contents (Elt Ideal))
      = hs3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W6_arr m ρ c 4).trans (Cert.KernelIdeal.Region2.final (V5 m ρ) c)).trans ?_
  show GcnSpec.inner (W5 m ρ c (Proc.devRef .tc main_call0_v38)) (W5 m ρ c (Proc.devRef .tc main_call0_v39)) (W5 m ρ c (Proc.devRef .tc main_call0_v15))
      (W5 m ρ c (Proc.devRef .tc main_arg6)) = _
  rw [W5_v38 m ρ c, W5_v39 m ρ c, dcol_at5 m ρ c, arg6_at5 m ρ c, W4_v28 m ρ c]
  rfl

/-! ## The stretch after region 2, and region 3: the result -/

/-- The stretch after region 2: the region's result gathered at the sources and accumulated at the targets. -/
theorem W7_v50 (c : Dev nD) :
    (W7 m ρ c (Proc.devRef .tc main_call0_v50) : (⟨S100000x32, .f32⟩ : BufTy).Contents (Elt Ideal))
      = nbrSum32 (F := Ideal) (m ((c : Thread nD τ).loc main_arg1)) (W6 m ρ c (Proc.devRef .tc main_call0_v40) : (⟨S100000x32, .f32⟩ : BufTy).Contents (Elt Ideal)) := by
  have h : (W7 m ρ c (Proc.devRef .tc main_call0_v50) : (⟨S100000x32, .f32⟩ : BufTy).Contents (Elt Ideal))
      = Host.scatterAdd (F := Ideal) scatter_S100000x32_S1700000x1_S1700000x32_1_0_0_1 (broadcastInDim S100000x32 ![] bcast_S_S100000x32 (constant (F := Ideal) S_ .f32 0x00000000#32))
          (broadcastInDim S1700000x1 ![0] bcast_S1700000_S1700000x1_0 (W6 m ρ c (Proc.devRef .tc main_call0_v6) : (⟨S1700000, .i32⟩ : BufTy).Contents (Elt Ideal)))
          (Host.gather gather_S100000x32_S1700000x1_S1700000x32_1_0_n_n_0_1_132 (W6 m ρ c (Proc.devRef .tc main_call0_v40) : (⟨S100000x32, .f32⟩ : BufTy).Contents (Elt Ideal))
            (broadcastInDim S1700000x1 ![0] bcast_S1700000_S1700000x1_0
              (select (cmpi .slt (W6 m ρ c (Proc.devRef .tc main_call0_v3) : (⟨S1700000, .i32⟩ : BufTy).Contents (Elt Ideal)) (broadcastInDim S1700000 ![] bcast_S_S1700000 (constantI S_ 32 0#32)))
                (addi (W6 m ρ c (Proc.devRef .tc main_call0_v3) : (⟨S1700000, .i32⟩ : BufTy).Contents (Elt Ideal)) (broadcastInDim S1700000 ![] bcast_S_S1700000 (constantI S_ 32 100000#32))) (W6 m ρ c (Proc.devRef .tc main_call0_v3) : (⟨S1700000, .i32⟩ : BufTy).Contents (Elt Ideal))))) := by
    dsimp only [W7]
    rw [HostPlain.ops3_eq]
    dsimp only [HostPlain.ops3]
    after_results_simp <;> rfl
  rw [h, dst_at6 m ρ c, src_at6 m ρ c]
  rfl

/-- The same stretch reshapes the next bias vector to a row. -/
theorem W7_v51 (c : Dev nD) :
    (W7 m ρ c (Proc.devRef .tc main_call0_v51) : (⟨S1x32, .f32⟩ : BufTy).Contents (Elt Ideal)) = row32 (F := Ideal) (m ((c : Thread nD τ).loc main_arg7)) := by
  have h : (W7 m ρ c (Proc.devRef .tc main_call0_v51) : (⟨S1x32, .f32⟩ : BufTy).Contents (Elt Ideal))
      = row32 (F := Ideal) (W6 m ρ c (Proc.devRef .tc main_arg7) : (⟨S32, .f32⟩ : BufTy).Contents (Elt Ideal)) := by
    dsimp only [W7]
    rw [HostPlain.ops3_eq]
    dsimp only [HostPlain.ops3]
    after_results_simp <;> rfl
  rw [h, arg7_at6 m ρ c]

/-- The result buffer after the run: the three layers of the argument arrays. -/
theorem result (c : Dev nD) :
    W8 m ρ c (Proc.devRef .tc main_v0)
      = kerVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W8_arr m ρ c 3).trans (Cert.KernelIdeal.Region3.final (V7 m ρ) c)).trans ?_
  show GcnSpec.rescaled (W7 m ρ c (Proc.devRef .tc main_call0_v50)) (W7 m ρ c (Proc.devRef .tc main_call0_v51)) (W7 m ρ c (Proc.devRef .tc main_call0_v15)) = _
  rw [W7_v50 m ρ c, W7_v51 m ρ c, dcol_at7 m ρ c, W6_v40 m ρ c]
  rfl

end Cert.KernelIdeal.KernelValue

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.LibNormalizedAgg.lean ====
/-
  Two arrangements of a degree-normalized neighbourhood sum.

  A table H : [N, C] of node features is aggregated along E edges: edge e reads row s(e) of the table and adds into row
  d(e) of the result, scaled by w(s(e)) * w(d(e)) for a per-node weight w : [N]. One arrangement scales every gathered row
  by the product of the two weights before the accumulating scatter. The other scales the table by w before the gather and
  scales the aggregated table by w after the scatter, which moves the factor w(d) out of the sum over the edges that land on
  row d. On the extended reals moving a factor out of a sum needs the factor to be a nonnegative number other than +infinity,
  or the sum to be empty; that is the hypothesis on the weights below, and nothing is asked of the table.

  The edge columns are [E, 1] index arrays as the host's gather and scatter take them: a gather clamps its signed start
  index into [0, N - 1], a scatter drops an update whose signed index is outside [0, N).
-/
import Idealize.ShloMosaic.PureOps.Ideal
import Idealize.ShloMosaic.Lib.ValueIdx
import proofs.«176507_j11871289606581_2_alg».proof.Proof.LibGatherScatter
import proofs.«176507_j11871289606581_2_alg».proof.Proof.LibHostRead

noncomputable section

open scoped BigOperators

namespace NormalizedAgg

open Idealize.ShloMosaic Idealize.ShloMosaic.ValueIdx

/-! ## The law on the extended reals -/

/-- A finite sum times a nonnegative factor other than +infinity is the sum of the products. -/
theorem sum_mul_of_nonneg_of_ne_top {ι : Type} (A : Finset ι) (f : ι → EReal) {c : EReal} (h0 : 0 ≤ c) (ht : c ≠ ⊤) :
    (∑ j ∈ A, f j) * c = ∑ j ∈ A, f j * c := by
  classical
  induction A using Finset.induction_on with
  | empty => simp
  | insert a s ha ih =>
    rw [Finset.sum_insert ha, Finset.sum_insert ha, EReal.right_distrib_of_nonneg_of_ne_top h0 ht, ih]

/-- The factor common to every term of a sum started from zero moves out of it, when it is a nonnegative number other than
    +infinity or when the sum is empty. -/
theorem factor_out {ι : Type} (A : Finset ι) (a p q : ι → EReal) (c : EReal)
    (hq : ∀ j ∈ A, q j = c) (hc : (0 ≤ c ∧ c ≠ ⊤) ∨ A = ∅) :
    (0 + ∑ j ∈ A, a j * p j) * c = 0 + ∑ j ∈ A, a j * (p j * q j) := by
  rcases hc with ⟨h0, ht⟩ | hA
  · rw [zero_add, zero_add, sum_mul_of_nonneg_of_ne_top A _ h0 ht]
    refine Finset.sum_congr rfl fun j hj => ?_
    rw [hq j hj, mul_assoc]
  · subst hA
    simp

/-! ## The two arrangements as the host computes them -/

/-- The row a gather reads for edge e: the signed index word clamped into [0, N - 1]. -/
def row {N E : ℕ} (hN : 0 < N) (idx : IVec ⟨2, ![E, 1]⟩ 32) (e : Fin E) : Fin N :=
  ⟨min (idx (ix2 e 0)).toInt.toNat (N - 1), by omega⟩

/-- Scaling the table before the gather and the aggregate after the scatter equals scaling every gathered row by the
    product of the two gathered weights. dst holds the raw scatter indices, dstW and srcW the indices the gathers read
    (an edge that lands on row n has the same index in dstW); a weight is a nonnegative number other than +infinity
    wherever some edge's dstW index is the row. -/
theorem scale_around_eq_scale_edges {N E C : ℕ} (hN : 0 < N)
    (dS : ScatterDims ⟨2, ![N, C]⟩ ⟨2, ![E, 1]⟩ ⟨2, ![E, C]⟩)
    (hS1 : dS.updateWindowDims = [1]) (hS2 : dS.insertedWindowDims = [0]) (hS3 : dS.scatterDimsToOperandDims = [0])
    (hS4 : dS.indexVectorDim = 1)
    (dG : GatherDims ⟨2, ![N, C]⟩ ⟨2, ![E, 1]⟩ ⟨2, ![E, C]⟩)
    (hG1 : dG.offsetDims = [1]) (hG2 : dG.collapsedSliceDims = [0]) (hG3 : dG.operandBatchingDims = [])
    (hG4 : dG.startIndexMap = [0]) (hG5 : dG.indexVectorDim = 1) (hG6 : dG.sliceSizes = ![1, C])
    (dg : GatherDims ⟨1, ![N]⟩ ⟨2, ![E, 1]⟩ ⟨1, ![E]⟩)
    (hg1 : dg.offsetDims = []) (hg2 : dg.collapsedSliceDims = [0]) (hg3 : dg.operandBatchingDims = [])
    (hg4 : dg.startIndexMap = [0]) (hg5 : dg.indexVectorDim = 1) (hg6 : dg.sliceSizes = ![1])
    (hbN1 : (⟨1, ![N]⟩ : Shape).BroadcastsInDim ⟨2, ![N, 1]⟩ ![0])
    (hbNC hbNC' : (⟨2, ![N, 1]⟩ : Shape).BroadcastsInDim ⟨2, ![N, C]⟩ ![0, 1])
    (hbE1 : (⟨1, ![E]⟩ : Shape).BroadcastsInDim ⟨2, ![E, 1]⟩ ![0])
    (hbEC : (⟨2, ![E, 1]⟩ : Shape).BroadcastsInDim ⟨2, ![E, C]⟩ ![0, 1])
    (Z : FVec Ideal ⟨2, ![N, C]⟩ .f32) (hZ : ∀ i, Z i = 0)
    (w : FVec Ideal ⟨1, ![N]⟩ .f32) (srcW dstW dst : IVec ⟨2, ![E, 1]⟩ 32)
    (hwrap : ∀ (e : Fin E) (n : Fin N), (dst (ix2 e 0)).toInt = (n.val : Int) → (dstW (ix2 e 0)).toInt = (n.val : Int))
    (hw : ∀ n : Fin N, (0 ≤ w (ix1 n) ∧ w (ix1 n) ≠ ⊤) ∨ ∀ e : Fin E, (dstW (ix2 e 0)).toInt ≠ (n.val : Int))
    (H : FVec Ideal ⟨2, ![N, C]⟩ .f32) :
    mulf (Host.scatterAdd dS Z dst
        (Host.gather dG (mulf H (broadcastInDim ⟨2, ![N, C]⟩ ![0, 1] hbNC (broadcastInDim ⟨2, ![N, 1]⟩ ![0] hbN1 w))) srcW))
      (broadcastInDim ⟨2, ![N, C]⟩ ![0, 1] hbNC' (broadcastInDim ⟨2, ![N, 1]⟩ ![0] hbN1 w))
    = Host.scatterAdd dS Z dst
        (mulf (Host.gather dG H srcW)
          (broadcastInDim ⟨2, ![E, C]⟩ ![0, 1] hbEC (broadcastInDim ⟨2, ![E, 1]⟩ ![0] hbE1
            (mulf (Host.gather dg w srcW) (Host.gather dg w dstW))))) := by
  funext i
  obtain ⟨n, c, rfl⟩ : ∃ (n : Fin N) (c : Fin C), i = ix2 n c := ⟨i 0, i 1, eq_ix2 i⟩
  show Host.scatterAdd dS Z dst _ (ix2 n c) * _ = _
  rw [Hmu.Lib.bcastRows_apply, Pegcn.Lib.scatterAdd2_apply dS hS1 hS2 hS3 hS4, Pegcn.Lib.scatterAdd2_apply dS hS1 hS2 hS3 hS4,
    hZ]
  have hL : ∀ j : (⟨2, ![E, C]⟩ : Shape).Idx,
      Host.gather dG (mulf H (broadcastInDim ⟨2, ![N, C]⟩ ![0, 1] hbNC (broadcastInDim ⟨2, ![N, 1]⟩ ![0] hbN1 w))) srcW j
        = H (ix2 (row hN srcW (j 0)) (j 1)) * w (ix1 (row hN srcW (j 0))) := by
    intro j
    obtain ⟨e, c', rfl⟩ : ∃ (e : Fin E) (c' : Fin C), j = ix2 e c' := ⟨j 0, j 1, eq_ix2 j⟩
    rw [Pegcn.Lib.gather2_apply hN dG hG1 hG2 hG3 hG4 hG5 hG6]
    show H _ * _ = _
    rw [Hmu.Lib.bcastRows_apply]
    rfl
  have hR : ∀ j : (⟨2, ![E, C]⟩ : Shape).Idx,
      mulf (Host.gather dG H srcW)
          (broadcastInDim ⟨2, ![E, C]⟩ ![0, 1] hbEC (broadcastInDim ⟨2, ![E, 1]⟩ ![0] hbE1
            (mulf (Host.gather dg w srcW) (Host.gather dg w dstW)))) j
        = H (ix2 (row hN srcW (j 0)) (j 1)) * (w (ix1 (row hN srcW (j 0))) * w (ix1 (row hN dstW (j 0)))) := by
    intro j
    obtain ⟨e, c', rfl⟩ : ∃ (e : Fin E) (c' : Fin C), j = ix2 e c' := ⟨j 0, j 1, eq_ix2 j⟩
    show Host.gather dG H srcW (ix2 e c') * _ = _
    rw [Hmu.Lib.bcastRows_apply, Pegcn.Lib.gather2_apply hN dG hG1 hG2 hG3 hG4 hG5 hG6]
    show _ * (Host.gather dg w srcW (ix1 e) * Host.gather dg w dstW (ix1 e)) = _
    rw [Pegcn.Lib.gather1_apply hN dg hg1 hg2 hg3 hg4 hg5 hg6, Pegcn.Lib.gather1_apply hN dg hg1 hg2 hg3 hg4 hg5 hg6]
    rfl
  simp only [hL, hR]
  refine factor_out (Finset.univ.filter fun j : (⟨2, ![E, C]⟩ : Shape).Idx =>
      (dst (ix2 (j 0) 0)).toInt = (n.val : Int) ∧ (j 1).val = c.val)
    (fun j => H (ix2 (row hN srcW (j 0)) (j 1))) (fun j => w (ix1 (row hN srcW (j 0))))
    (fun j => w (ix1 (row hN dstW (j 0)))) (w (ix1 n)) (fun j hj => ?_) ?_
  · have hW := hwrap (j 0) n (Finset.mem_filter.mp hj).2.1
    show w (ix1 (row hN dstW (j 0))) = w (ix1 n)
    rw [show row hN dstW (j 0) = n from Pegcn.Lib.clamp_fin_eq _ n hW _]
  · rcases hw n with h | h
    · exact Or.inl h
    · refine Or.inr (Finset.filter_eq_empty_iff.mpr fun j _ hj => ?_)
      exact h (j 0) (hwrap (j 0) n hj.1)

end NormalizedAgg

end
-- ==== Proof.Weights.lean ====
/-
  Two facts about the edge preparation, on the extended reals.

  A node's weight is the inverse square root of its degree where the degree is positive and zero elsewhere. Whatever the
  degree is — a positive real, +infinity, zero, anything — that weight is a nonnegative number other than +infinity: the
  inverse square root of a positive real is a positive real, of +infinity it is zero, and every other degree is sent to
  zero by the guard. This is what lets a node's weight move out of the sum over the edges that land on the node.

  The index column a gather reads has the node count added to every negative word. An edge whose raw target word is a row
  number is not negative, so its wrapped word is the same row number.
-/
import proofs.«176507_j11871289606581_2_alg».proof.Proof.RefTerms
import proofs.«176507_j11871289606581_2_alg».proof.Proof.LibGatherScatter
import proofs.«176507_j11871289606581_2_alg».proof.Proof.LibHostRead
import Idealize.ShloMosaic.PureOps.Ideal
import Idealize.ShloMosaic.Lib.ValueIdx

noncomputable section

namespace Cert.ReferenceIdeal.Weights

open Cert.ReferenceIdeal Cert.ReferenceIdeal.Gen Cert.ReferenceIdeal.Terms Idealize.ShloMosaic Idealize.ShloMosaic.ValueIdx

/-- The guarded inverse square root of any extended real is a nonnegative number other than +infinity. -/
theorem guarded_rsqrt (x : EReal) :
    (0 : EReal) ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  by_cases h : (0 : EReal) < x
  · have hb : BitVec.ofBool (decide ((0 : EReal) < x)) = 1 := by simp [h]
    simp only [hb, if_true]
    induction x using EReal.rec with
    | bot => exact absurd h (not_lt.mpr bot_le)
    | top => simp
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have hb : BitVec.ofBool (decide ((0 : EReal) < x)) ≠ 1 := by simp [h]
    simp only [hb, if_false]
    exact ⟨le_refl _, EReal.zero_ne_top⟩

/-- A node's weight read at the node: the guarded inverse square root of its degree. -/
theorem dinv_apply (ei : (⟨S2x1600000, .i32⟩ : BufTy).Contents (Elt Ideal)) (n : Fin 100000) :
    dinv (F := Ideal) ei (ix1 n)
      = Scalar.select (Ideal.cmp .ogt (deg (F := Ideal) ei (ix1 n)) 0) (Ideal.rsqrt (deg (F := Ideal) ei (ix1 n))) (0 : EReal) := by
  unfold dinv
  rw [select_apply, cmpf_apply, Hmu.Lib.hostRsqrt_apply]
  have hz : ∀ h : S_.BroadcastsInDim S100000 (![] : Fin 0 → Fin S100000.rank),
      broadcastInDim S100000 ![] h (constant (F := Ideal) S_ .f32 0x00000000#32) (ix1 n) = (0 : EReal) := fun h =>
    (Hmu.Lib.bcast_const_apply _ h _).trans Ideal.ofBits_zero_f32
  have hz' : broadcastInDim S100000 ![] bcast_S_S100000 (id (constant (F := Ideal) S_ .f32 0x00000000#32)) (ix1 n) = (0 : EReal) :=
    hz _
  rw [hz, hz']
  rfl

/-- Every node's weight is a nonnegative number other than +infinity. -/
theorem dinv_nonneg_ne_top (ei : (⟨S2x1600000, .i32⟩ : BufTy).Contents (Elt Ideal)) (n : Fin 100000) :
    (0 : EReal) ≤ dinv (F := Ideal) ei (ix1 n) ∧ dinv (F := Ideal) ei (ix1 n) ≠ ⊤ := by
  rw [dinv_apply]
  exact guarded_rsqrt _

/-- An edge whose raw target word is the row n has n as its wrapped target word too. -/
theorem dstW_eq_of_dstC (ei : (⟨S2x1600000, .i32⟩ : BufTy).Contents (Elt Ideal)) (e : Fin 1700000) (n : Fin 100000) :
    (dstC (F := Ideal) ei (ix2 e 0)).toInt = (n.val : Int) → (dstW (F := Ideal) ei (ix2 e 0)).toInt = (n.val : Int) := by
  intro h
  unfold dstC at h
  unfold dstW
  rw [Hmu.Lib.bcast_a_a1_apply] at h ⊢
  rw [Pegcn.Lib.wrap_bcast_apply _ _ _ _ _ _ (by rw [h]; exact Int.natCast_nonneg _)]
  exact h

end Cert.ReferenceIdeal.Weights

end
-- ==== Proof.Bridge.lean ====
/-
  The two arrangements of a three-layer degree-normalised graph convolution are one array on the extended reals.

  Write d for the per-node weights and D for d repeated across a row. One arrangement multiplies every projected row
  by d before the neighbourhood sum and the aggregate by d after it; the other multiplies every gathered row by the
  product d(source) * d(target) inside the sum. First the dense stages of the first arrangement, given entry by entry,
  are read as whole-array operations: a projection followed by a row-wise multiplication is (X · W) * D, the rescaled
  and biased aggregate is agg * D + B with B the bias row repeated down the rows, and the rectifier is the maximum with
  the zero array. With the stages in that form every layer of the first arrangement reads (S (H * D)) * D, S the plain
  neighbourhood sum, and moving the factor d(target) into the sum over the edges that land on a row — legitimate
  because every weight is a nonnegative number other than +infinity — makes it the second arrangement's weighted sum
  of H. Three layers are three such steps.
-/
import proofs.«176507_j11871289606581_2_alg».proof.Proof.KernelTerms
import proofs.«176507_j11871289606581_2_alg».proof.Proof.RefTerms
import proofs.«176507_j11871289606581_2_alg».proof.Proof.LibNormalizedAgg
import proofs.«176507_j11871289606581_2_alg».proof.Proof.LibHostSlab
import proofs.«176507_j11871289606581_2_alg».proof.Proof.LibRowOps
import proofs.«176507_j11871289606581_2_alg».proof.Proof.Weights
import Idealize.ShloMosaic.Lib.ValueLayout

noncomputable section

open scoped BigOperators

namespace Cert.Bridge

open Idealize.ShloMosaic Idealize.ShloMosaic.ValueIdx

/-! ## The dense stages as whole-array operations, every extent generic -/

section Dense

variable {N K C : ℕ}

/-- A projection whose rows are then multiplied by the node's weight is the matrix product times the weights
    repeated across a row: entry (p, q) of either is (sum over k of x(p,k) * m(k,q)) * w(p). -/
theorem scaledProj_eq (dd : DotDims ⟨2, ![N, K]⟩ ⟨2, ![K, C]⟩ ⟨2, ![N, C]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (hc : (⟨1, ![N]⟩ : Shape).ShapeCasts ⟨2, ![N, 1]⟩)
    (hbN1 : (⟨1, ![N]⟩ : Shape).BroadcastsInDim ⟨2, ![N, 1]⟩ ![0])
    (hbNC : (⟨2, ![N, 1]⟩ : Shape).BroadcastsInDim ⟨2, ![N, C]⟩ ![0, 1])
    (x : FVec Ideal ⟨2, ![N, K]⟩ .f32) (m : FVec Ideal ⟨2, ![K, C]⟩ .f32) (w : FVec Ideal ⟨1, ![N]⟩ .f32) :
    GcnSpec.scaledProj x m (shapeCast ⟨2, ![N, 1]⟩ w hc)
      = mulf (Host.dotGeneral dd none x m)
          (broadcastInDim ⟨2, ![N, C]⟩ ![0, 1] hbNC (broadcastInDim ⟨2, ![N, 1]⟩ ![0] hbN1 w)) := by
  funext i
  obtain ⟨p, q, rfl⟩ : ∃ (p : Fin N) (q : Fin C), i = ix2 p q := ⟨i 0, i 1, eq_ix2 i⟩
  rw [GcnSpec.scaledProj_apply, mulf_apply, Bilinear.Host.dot_apply dd h1 h2 h3 h4 h5 h6, Hmu.Lib.bcastRows_apply,
    Gcn.Lib.shapeCast_a_a1_apply]

/-- The aggregate multiplied row by row by the node's weight plus the bias row is agg * D + B: entry (p, k) of either
    is agg(p,k) * w(p) + b(k). -/
theorem rescaled_eq (hc : (⟨1, ![N]⟩ : Shape).ShapeCasts ⟨2, ![N, 1]⟩)
    (hr : (⟨1, ![C]⟩ : Shape).ShapeCasts ⟨2, ![1, C]⟩)
    (hbN1 : (⟨1, ![N]⟩ : Shape).BroadcastsInDim ⟨2, ![N, 1]⟩ ![0])
    (hbNC : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (agg : FVec Ideal ⟨2, ![N, C]⟩ .f32) (b : FVec Ideal ⟨1, ![C]⟩ .f32) (w : FVec Ideal ⟨1, ![N]⟩ .f32) :
    GcnSpec.rescaled agg (shapeCast ⟨2, ![1, C]⟩ b hr) (shapeCast ⟨2, ![N, 1]⟩ w hc)
      = addf (mulf agg (broadcastInDim ⟨2, ![N, C]⟩ ![0, 1] hbNC (broadcastInDim ⟨2, ![N, 1]⟩ ![0] hbN1 w)))
          (broadcastInDim ⟨2, ![N, C]⟩ ![0, 1] hb2 (broadcastInDim ⟨2, ![1, C]⟩ ![1] hb1 b)) := by
  funext i
  obtain ⟨p, q, rfl⟩ : ∃ (p : Fin N) (q : Fin C), i = ix2 p q := ⟨i 0, i 1, eq_ix2 i⟩
  rw [GcnSpec.rescaled_apply, addf_apply, mulf_apply, Hmu.Lib.bcastRows_apply, Hmu.Lib.bcastCols_apply,
    Gcn.Lib.shapeCast_a_a1_apply, shapeCast_a_1a_apply]

/-- The rectified activation is the maximum of agg * D + B with the zero array. -/
theorem act_eq (hc : (⟨1, ![N]⟩ : Shape).ShapeCasts ⟨2, ![N, 1]⟩)
    (hr : (⟨1, ![C]⟩ : Shape).ShapeCasts ⟨2, ![1, C]⟩)
    (hbN1 : (⟨1, ![N]⟩ : Shape).BroadcastsInDim ⟨2, ![N, 1]⟩ ![0])
    (hbNC : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (hz : (⟨0, ![]⟩ : Shape).BroadcastsInDim ⟨2, ![N, C]⟩ ![])
    (agg : FVec Ideal ⟨2, ![N, C]⟩ .f32) (b : FVec Ideal ⟨1, ![C]⟩ .f32) (w : FVec Ideal ⟨1, ![N]⟩ .f32) :
    GcnSpec.act agg (shapeCast ⟨2, ![1, C]⟩ b hr) (shapeCast ⟨2, ![N, 1]⟩ w hc)
      = maximumf
          (addf (mulf agg (broadcastInDim ⟨2, ![N, C]⟩ ![0, 1] hbNC (broadcastInDim ⟨2, ![N, 1]⟩ ![0] hbN1 w)))
            (broadcastInDim ⟨2, ![N, C]⟩ ![0, 1] hb2 (broadcastInDim ⟨2, ![1, C]⟩ ![1] hb1 b)))
          (broadcastInDim ⟨2, ![N, C]⟩ ![] hz (constant (F := Ideal) ⟨0, ![]⟩ .f32 0x00000000#32)) := by
  funext i
  rw [maximumf_apply, Hmu.Lib.bcast_const_apply, Ideal.ofBits_zero_f32, ← rescaled_eq hc hr hbN1 hbNC hb1 hb2]
  rfl

/-- The second half of a layer followed by the first half of the next:
    (max(agg * D + B, 0) · M) * D. -/
theorem inner_eq {C' : ℕ} (dd : DotDims ⟨2, ![N, C]⟩ ⟨2, ![C, C']⟩ ⟨2, ![N, C']⟩)
    (h1 : dd.lhsContracting = [1]) (h2 : dd.rhsContracting = [0]) (h3 : dd.lhsNonContracting = [0])
    (h4 : dd.rhsNonContracting = [1]) (h5 : dd.lhsBatch = []) (h6 : dd.rhsBatch = [])
    (hc : (⟨1, ![N]⟩ : Shape).ShapeCasts ⟨2, ![N, 1]⟩)
    (hr : (⟨1, ![C]⟩ : Shape).ShapeCasts ⟨2, ![1, C]⟩)
    (hbN1 : (⟨1, ![N]⟩ : Shape).BroadcastsInDim ⟨2, ![N, 1]⟩ ![0])
    (hbNC : (⟨2, ![N, 1]⟩ : Shape).BroadcastsInDim ⟨2, ![N, C]⟩ ![0, 1])
    (hbNC' : (⟨2, ![N, 1]⟩ : Shape).BroadcastsInDim ⟨2, ![N, C']⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (hz : (⟨0, ![]⟩ : Shape).BroadcastsInDim ⟨2, ![N, C]⟩ ![])
    (agg : FVec Ideal ⟨2, ![N, C]⟩ .f32) (b : FVec Ideal ⟨1, ![C]⟩ .f32) (w : FVec Ideal ⟨1, ![N]⟩ .f32)
    (m : FVec Ideal ⟨2, ![C, C']⟩ .f32) :
    GcnSpec.inner agg (shapeCast ⟨2, ![1, C]⟩ b hr) (shapeCast ⟨2, ![N, 1]⟩ w hc) m
      = mulf (Host.dotGeneral dd none
            (maximumf
              (addf (mulf agg (broadcastInDim ⟨2, ![N, C]⟩ ![0, 1] hbNC (broadcastInDim ⟨2, ![N, 1]⟩ ![0] hbN1 w)))
                (broadcastInDim ⟨2, ![N, C]⟩ ![0, 1] hb2 (broadcastInDim ⟨2, ![1, C]⟩ ![1] hb1 b)))
              (broadcastInDim ⟨2, ![N, C]⟩ ![] hz (constant (F := Ideal) ⟨0, ![]⟩ .f32 0x00000000#32))) m)
          (broadcastInDim ⟨2, ![N, C']⟩ ![0, 1] hbNC' (broadcastInDim ⟨2, ![N, 1]⟩ ![0] hbN1 w)) := by
  unfold GcnSpec.inner
  rw [act_eq hc hr hbN1 hbNC hb1 hb2 hz, scaledProj_eq dd h1 h2 h3 h4 h5 h6 hc hbN1 hbNC']

end Dense

/-! ## One layer: the weight moved inside the neighbourhood sum -/

section Layer

/-- The weights as a column: [N] to [N, 1]. -/
theorem bN1 : (⟨1, ![100000]⟩ : Shape).BroadcastsInDim ⟨2, ![100000, 1]⟩ ![0] := by decide
/-- The column repeated across 64 entries. -/
theorem bNC64 : (⟨2, ![100000, 1]⟩ : Shape).BroadcastsInDim ⟨2, ![100000, 64]⟩ ![0, 1] := by decide
/-- The column repeated across 32 entries. -/
theorem bNC32 : (⟨2, ![100000, 1]⟩ : Shape).BroadcastsInDim ⟨2, ![100000, 32]⟩ ![0, 1] := by decide

/-- Over 64 features: the plain neighbourhood sum of H * D, multiplied by D, is the sum of the gathered rows of H each
    multiplied by d(source) * d(target). Every weight is a nonnegative number other than +infinity, and an edge that
    lands on a row reads that row's weight at its wrapped target. -/
theorem layer64 (hbN1 : (⟨1, ![100000]⟩ : Shape).BroadcastsInDim ⟨2, ![100000, 1]⟩ ![0])
    (hbNC : (⟨2, ![100000, 1]⟩ : Shape).BroadcastsInDim ⟨2, ![100000, 64]⟩ ![0, 1])
    (ei : (⟨Cert.KernelIdeal.S2x1600000, .i32⟩ : BufTy).Contents (Elt Ideal))
    (H : FVec Ideal ⟨2, ![100000, 64]⟩ .f32) :
    mulf (F := Ideal) (φ := .f32) (Cert.KernelIdeal.Terms.nbrSum64 (F := Ideal) ei
          (mulf H (broadcastInDim ⟨2, ![100000, 64]⟩ ![0, 1] hbNC
            (broadcastInDim ⟨2, ![100000, 1]⟩ ![0] hbN1 (Cert.KernelIdeal.Terms.dinv (F := Ideal) ei)))))
        (broadcastInDim ⟨2, ![100000, 64]⟩ ![0, 1] hbNC
          (broadcastInDim ⟨2, ![100000, 1]⟩ ![0] hbN1 (Cert.KernelIdeal.Terms.dinv (F := Ideal) ei)))
      = Cert.ReferenceIdeal.Terms.edgeSum64 (F := Ideal) ei H :=
  NormalizedAgg.scale_around_eq_scale_edges (N := 100000) (E := 1700000) (C := 64) (by decide)
    Cert.ReferenceIdeal.scatter_S100000x64_S1700000x1_S1700000x64_1_0_0_1 rfl rfl rfl rfl
    Cert.ReferenceIdeal.gather_S100000x64_S1700000x1_S1700000x64_1_0_n_n_0_1_164 rfl rfl rfl rfl rfl rfl
    Cert.ReferenceIdeal.gather_S100000_S1700000x1_S1700000_n_0_n_n_0_1_1 rfl rfl rfl rfl rfl rfl
    hbN1 hbNC hbNC Cert.ReferenceIdeal.Gen.bcast_S1700000_S1700000x1_0
    Cert.ReferenceIdeal.Gen.bcast_S1700000x1_S1700000x64_0_1
    (broadcastInDim Cert.ReferenceIdeal.S100000x64 ![] Cert.ReferenceIdeal.Gen.bcast_S_S100000x64
      (constant (F := Ideal) Cert.ReferenceIdeal.S_ .f32 0x00000000#32))
    (fun i => (Hmu.Lib.bcast_const_apply 0x00000000#32 Cert.ReferenceIdeal.Gen.bcast_S_S100000x64 i).trans Ideal.ofBits_zero_f32)
    (Cert.ReferenceIdeal.Terms.dinv (F := Ideal) ei) (Cert.ReferenceIdeal.Terms.srcW (F := Ideal) ei)
    (Cert.ReferenceIdeal.Terms.dstW (F := Ideal) ei) (Cert.ReferenceIdeal.Terms.dstC (F := Ideal) ei)
    (Cert.ReferenceIdeal.Weights.dstW_eq_of_dstC ei)
    (fun n => Or.inl (Cert.ReferenceIdeal.Weights.dinv_nonneg_ne_top ei n)) H

/-- The same over 32 features. -/
theorem layer32 (hbN1 : (⟨1, ![100000]⟩ : Shape).BroadcastsInDim ⟨2, ![100000, 1]⟩ ![0])
    (hbNC : (⟨2, ![100000, 1]⟩ : Shape).BroadcastsInDim ⟨2, ![100000, 32]⟩ ![0, 1])
    (ei : (⟨Cert.KernelIdeal.S2x1600000, .i32⟩ : BufTy).Contents (Elt Ideal))
    (H : FVec Ideal ⟨2, ![100000, 32]⟩ .f32) :
    mulf (F := Ideal) (φ := .f32) (Cert.KernelIdeal.Terms.nbrSum32 (F := Ideal) ei
          (mulf H (broadcastInDim ⟨2, ![100000, 32]⟩ ![0, 1] hbNC
            (broadcastInDim ⟨2, ![100000, 1]⟩ ![0] hbN1 (Cert.KernelIdeal.Terms.dinv (F := Ideal) ei)))))
        (broadcastInDim ⟨2, ![100000, 32]⟩ ![0, 1] hbNC
          (broadcastInDim ⟨2, ![100000, 1]⟩ ![0] hbN1 (Cert.KernelIdeal.Terms.dinv (F := Ideal) ei)))
      = Cert.ReferenceIdeal.Terms.edgeSum32 (F := Ideal) ei H :=
  NormalizedAgg.scale_around_eq_scale_edges (N := 100000) (E := 1700000) (C := 32) (by decide)
    Cert.ReferenceIdeal.scatter_S100000x32_S1700000x1_S1700000x32_1_0_0_1 rfl rfl rfl rfl
    Cert.ReferenceIdeal.gather_S100000x32_S1700000x1_S1700000x32_1_0_n_n_0_1_132 rfl rfl rfl rfl rfl rfl
    Cert.ReferenceIdeal.gather_S100000_S1700000x1_S1700000_n_0_n_n_0_1_1 rfl rfl rfl rfl rfl rfl
    hbN1 hbNC hbNC Cert.ReferenceIdeal.Gen.bcast_S1700000_S1700000x1_0
    Cert.ReferenceIdeal.Gen.bcast_S1700000x1_S1700000x32_0_1
    (broadcastInDim Cert.ReferenceIdeal.S100000x32 ![] Cert.ReferenceIdeal.Gen.bcast_S_S100000x32
      (constant (F := Ideal) Cert.ReferenceIdeal.S_ .f32 0x00000000#32))
    (fun i => (Hmu.Lib.bcast_const_apply 0x00000000#32 Cert.ReferenceIdeal.Gen.bcast_S_S100000x32 i).trans Ideal.ofBits_zero_f32)
    (Cert.ReferenceIdeal.Terms.dinv (F := Ideal) ei) (Cert.ReferenceIdeal.Terms.srcW (F := Ideal) ei)
    (Cert.ReferenceIdeal.Terms.dstW (F := Ideal) ei) (Cert.ReferenceIdeal.Terms.dstC (F := Ideal) ei)
    (Cert.ReferenceIdeal.Weights.dstW_eq_of_dstC ei)
    (fun n => Or.inl (Cert.ReferenceIdeal.Weights.dinv_nonneg_ne_top ei n)) H

end Layer

/-! ## The three layers -/

/-- The first arrangement's result is the second's, as whole arrays: the dense stages are read as array operations,
    and each of the three neighbourhood sums takes the target's weight inside. -/
theorem kerVal_eq_refVal
    (x0 : (⟨Cert.KernelIdeal.S100000x128, .f32⟩ : BufTy).Contents (Elt Ideal))
    (ei : (⟨Cert.KernelIdeal.S2x1600000, .i32⟩ : BufTy).Contents (Elt Ideal))
    (x2 : (⟨Cert.KernelIdeal.S128x64, .f32⟩ : BufTy).Contents (Elt Ideal))
    (x3 : (⟨Cert.KernelIdeal.S64, .f32⟩ : BufTy).Contents (Elt Ideal))
    (x4 : (⟨Cert.KernelIdeal.S64x64, .f32⟩ : BufTy).Contents (Elt Ideal))
    (x5 : (⟨Cert.KernelIdeal.S64, .f32⟩ : BufTy).Contents (Elt Ideal))
    (x6 : (⟨Cert.KernelIdeal.S64x32, .f32⟩ : BufTy).Contents (Elt Ideal))
    (x7 : (⟨Cert.KernelIdeal.S32, .f32⟩ : BufTy).Contents (Elt Ideal)) :
    Cert.KernelIdeal.Terms.kerVal x0 ei x2 x3 x4 x5 x6 x7
      = Cert.ReferenceIdeal.Terms.refVal (F := Ideal) x0 ei x2 x3 x4 x5 x6 x7 := by
  unfold Cert.KernelIdeal.Terms.kerVal Cert.KernelIdeal.Terms.hs3 Cert.KernelIdeal.Terms.hs2
    Cert.KernelIdeal.Terms.hs1 Cert.KernelIdeal.Terms.dcol Cert.KernelIdeal.Terms.row64 Cert.KernelIdeal.Terms.row32
    Cert.ReferenceIdeal.Terms.refVal
  rw [scaledProj_eq Cert.ReferenceIdeal.dot_S100000x128_S128x64_S100000x64_1_0_0_1_n_n rfl rfl rfl rfl rfl rfl
      Cert.KernelIdeal.Gen.shapeCasts_S100000_S100000x1 bN1 bNC64,
    inner_eq Cert.ReferenceIdeal.dot_S100000x64_S64x64_S100000x64_1_0_0_1_n_n rfl rfl rfl rfl rfl rfl
      Cert.KernelIdeal.Gen.shapeCasts_S100000_S100000x1 Cert.KernelIdeal.Gen.shapeCasts_S64_S1x64 bN1 bNC64 bNC64
      Cert.ReferenceIdeal.Gen.bcast_S64_S1x64_1 Cert.ReferenceIdeal.Gen.bcast_S1x64_S100000x64_0_1
      Cert.ReferenceIdeal.Gen.bcast_S_S100000x64,
    layer64 bN1 bNC64,
    inner_eq Cert.ReferenceIdeal.dot_S100000x64_S64x32_S100000x32_1_0_0_1_n_n rfl rfl rfl rfl rfl rfl
      Cert.KernelIdeal.Gen.shapeCasts_S100000_S100000x1 Cert.KernelIdeal.Gen.shapeCasts_S64_S1x64 bN1 bNC64 bNC32
      Cert.ReferenceIdeal.Gen.bcast_S64_S1x64_1 Cert.ReferenceIdeal.Gen.bcast_S1x64_S100000x64_0_1
      Cert.ReferenceIdeal.Gen.bcast_S_S100000x64,
    layer64 bN1 bNC64,
    rescaled_eq Cert.KernelIdeal.Gen.shapeCasts_S100000_S100000x1 Cert.KernelIdeal.Gen.shapeCasts_S32_S1x32 bN1 bNC32
      Cert.ReferenceIdeal.Gen.bcast_S32_S1x32_1 Cert.ReferenceIdeal.Gen.bcast_S1x32_S100000x32_0_1,
    layer32 bN1 bNC32]

end Cert.Bridge

end
-- ==== Proof.RefValue.lean ====
/-
  The reference program's run ends with its result buffer at the structured term of the argument arrays: the run's
  closed term is that term with every named piece written out.
-/
import proofs.«176507_j11871289606581_2_alg».proof.Proof.ReferenceIdealRunP
import proofs.«176507_j11871289606581_2_alg».proof.Proof.RefTerms

set_option maxRecDepth 16384

noncomputable section

namespace Cert.ReferenceIdeal.RefValue

open Cert.ReferenceIdeal Cert.ReferenceIdeal.Terms Idealize.ShloMosaic Idealize.ShloMosaic.TcCoe Idealize.SL.Sem

variable {F : FTy → Type} [FloatOps F]

/-- The run's result term is the three layers of the argument arrays. -/
theorem res_eq (m : (ℓ : Loc nD τ sig) → Buf (Elt F) ℓ) (c : Dev nD) :
    Cert.ReferenceIdeal.Value.res_main_v112 (F := F) m c
      = refVal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v112 refVal edgeSum32 edgeSum64 norm dinv deg dstC dstW srcW dst src
  rfl

end Cert.ReferenceIdeal.RefValue

end
-- ==== Proof.Claims.lean ====
/-
  The certificate's five claims, assembled.

  Three say that a program runs and leaves its eight argument arrays as they were. One says that the kernel read on the
  extended reals is the kernel's own text, no operation rewritten. The last says that from memories agreeing on the
  argument arrays the kernel and the reference, both read on the extended reals, end with the same result array: the
  kernel's run ends at one term of the argument arrays, the reference's run at another, and the two terms are equal.
-/
import proofs.«176507_j11871289606581_2_alg».proof.Defs
import proofs.«176507_j11871289606581_2_alg».proof.Proof.Gen.Kernel
import proofs.«176507_j11871289606581_2_alg».proof.Proof.Gen.KernelIdeal
import proofs.«176507_j11871289606581_2_alg».proof.Proof.Gen.ReferenceIdeal
import proofs.«176507_j11871289606581_2_alg».proof.Proof.Gen.Pre_finite_inputs
import proofs.«176507_j11871289606581_2_alg».proof.Proof.KernelFrameP
import proofs.«176507_j11871289606581_2_alg».proof.Proof.KernelIdealFrameP
import proofs.«176507_j11871289606581_2_alg».proof.Proof.ReferenceIdealRunP
import proofs.«176507_j11871289606581_2_alg».proof.Proof.KernelRun
import proofs.«176507_j11871289606581_2_alg».proof.Proof.KernelTerms
import proofs.«176507_j11871289606581_2_alg».proof.Proof.RefTerms
import proofs.«176507_j11871289606581_2_alg».proof.Proof.KernelValue
import proofs.«176507_j11871289606581_2_alg».proof.Proof.Bridge
import proofs.«176507_j11871289606581_2_alg».proof.Proof.RefValue

noncomputable section

open Idealize.ShloMosaic Idealize.ShloMosaic.TcCoe Idealize.SL.Sem

namespace Cert.Proof.Claims

/-- The kernel as printed runs and leaves its arguments as they were: its frame. -/
theorem frame_p : Cert.frame_Kernel := fun m ρ _ => Cert.Kernel.Gen.frame m ρ

/-- The kernel read on the extended reals runs and leaves its arguments as they were: its frame. -/
theorem frame_pi : Cert.frame_KernelIdeal := fun m ρ _ => Cert.KernelIdeal.Gen.frame m ρ

/-- The reference read on the extended reals runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- Equal results from three facts: the kernel's result array ends at the kernel's term of the argument arrays; that
    term equals the reference's term of the same arrays; the reference's run ends at the reference's term. The witness
    is the kernel's term; the reference's memory agrees with the kernel's on every argument, so its term is read at the
    kernel's arrays. -/
theorem algebraic_of
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W8 (F := Ideal) m ρ c (Proc.devRef .tc Cert.KernelIdeal.main_v0) = Cert.KernelIdeal.Terms.kerVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (hbridge : ∀ x0 ei x2 x3 x4 x5 x6 x7,
      Cert.KernelIdeal.Terms.kerVal x0 ei x2 x3 x4 x5 x6 x7 = Cert.ReferenceIdeal.Terms.refVal (F := Ideal) x0 ei x2 x3 x4 x5 x6 x7)
    (hrefv : ∀ (m' : (ℓ : Loc Cert.ReferenceIdeal.nD Cert.ReferenceIdeal.τ Cert.ReferenceIdeal.sig) → Buf (Elt Ideal) ℓ) (c : Dev Cert.ReferenceIdeal.nD),
      Cert.ReferenceIdeal.Value.res_main_v112 (F := Ideal) m' c = Cert.ReferenceIdeal.Terms.refVal (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) :
    Cert.algebraic_KernelIdeal_ReferenceIdeal := by
  intro m ρ m' ρ' _ hagree
  refine ⟨fun c => Cert.KernelIdeal.Terms.kerVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (hres m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [hrefv m' c, a0, a1, a2, a3, a4, a5, a6, a7]
    exact (hbridge _ _ _ _ _ _ _ _).symm

/-- From memories agreeing on the argument arrays, the kernel and the reference on the extended reals end with equal
    result arrays and unchanged arguments. -/
theorem algebraic : Cert.algebraic_KernelIdeal_ReferenceIdeal :=
  algebraic_of (fun m ρ c => Cert.KernelIdeal.KernelValue.result m ρ c)
    (fun x0 ei x2 x3 x4 x5 x6 x7 => Cert.Bridge.kerVal_eq_refVal x0 ei x2 x3 x4 x5 x6 x7)
    (fun m' c => Cert.ReferenceIdeal.RefValue.res_eq (F := Ideal) m' c)

end Cert.Proof.Claims

end
-- ==== Proof.lean ====
/-
  A three-layer graph convolution with symmetric degree normalisation, as Pallas TPU kernels around host gathers and
  scatters, against its jnp reference: equal results on the extended reals.

  Both programs prepare the edges the same way: every node gets a self loop, a node's degree is the number of edges that
  land on it, and its weight is d = deg^(-1/2) where the degree is positive and 0 elsewhere. A layer of the reference
  projects the node features through a weight matrix, gathers the projected rows at the edges' sources, multiplies each
  gathered row by d(source) * d(target), accumulates the rows at the edges' targets and adds a bias; a rectifier sits between
  layers. The kernel program splits the edge weight around the sum: a kernel multiplies each projected row by its node's
  d before the gather, the host takes the plain sum over the edges, and the next kernel multiplies the sum's row by d again
  before the bias (fused with the rectifier and the next layer's projection). Row n of the kernel's aggregate is
  (sum over the edges landing on n of h(source) * d(source)) * d(n), the reference's is the sum of h(source) * (d(source) * d(n)):
  equal because d(n) is a nonnegative number other than +infinity, so it distributes over the sum on the extended reals. No
  finiteness of the inputs is used.

  The kernel's value is read off its run segment by segment — four regions, each leaving one whole-array function of its
  input arrays by a cover of its twenty row blocks, among four stretches of host operations —, the reference's off its run's
  closed term, and the two terms are joined layer by layer.
-/
import proofs.«176507_j11871289606581_2_alg».proof.Defs
import proofs.«176507_j11871289606581_2_alg».proof.Proof.Gen.Kernel
import proofs.«176507_j11871289606581_2_alg».proof.Proof.Gen.KernelIdeal
import proofs.«176507_j11871289606581_2_alg».proof.Proof.Gen.ReferenceIdeal
import proofs.«176507_j11871289606581_2_alg».proof.Proof.Gen.Pre_finite_inputs
import proofs.«176507_j11871289606581_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves,
    Cert.Proof.Claims.algebraic⟩

end Cert.Proof

end
